-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S1024x1024 : Shape := ⟨2, ![1024, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S32x2048x1024 .f32) (main_arg1 : FVec F S1024x1024 .f32) (main_arg2 : FVec F S1024x1024 .f32) (main_arg3 : FVec F S1024x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S32x2048x1024 : Shape := ⟨3, ![32, 2048, 1024]⟩
abbrev S1024x1024 : Shape := ⟨2, ![1024, 1024]⟩
abbrev S65536x1024 : Shape := ⟨2, ![65536, 1024]⟩
abbrev S512x1024 : Shape := ⟨2, ![512, 1024]⟩
abbrev S1x2048x1024 : Shape := ⟨3, ![1, 2048, 1024]⟩
abbrev S1x128x1024 : Shape := ⟨3, ![1, 128, 1024]⟩
abbrev S2048x1024 : Shape := ⟨2, ![2048, 1024]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 13
  | .vmem => 19
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S65536x1024, .f32⟩
  | .hbm, ⟨5, _⟩ => ⟨S1024x1024, .bf16⟩
  | .hbm, ⟨6, _⟩ => ⟨S65536x1024, .f32⟩
  | .hbm, ⟨7, _⟩ => ⟨S65536x1024, .f32⟩
  | .hbm, ⟨8, _⟩ => ⟨S65536x1024, .bf16⟩
  | .hbm, ⟨9, _⟩ => ⟨S32x2048x1024, .f32⟩
  | .hbm, ⟨10, _⟩ => ⟨S32x2048x1024, .f32⟩
  | .hbm, ⟨11, _⟩ => ⟨S32x2048x1024, .bf16⟩
  | .hbm, ⟨12, _⟩ => ⟨S32x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x2048x1024, .f32⟩
  | .local _ .vmem, ⟨12, _⟩ => ⟨S1x2048x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .bf16⟩
  | .local _ .vmem, ⟨16, _⟩ => ⟨S1x128x1024, .bf16⟩
  | .local _ .vmem, ⟨17, _⟩ => ⟨S1x2048x1024, .f32⟩
  | .local _ .vmem, ⟨18, _⟩ => ⟨S1x2048x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![32, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S32x2048x1024_S65536x1024 : S32x2048x1024.ShapeCasts S65536x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S65536x1024_S32x2048x1024 : S65536x1024.ShapeCasts S32x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  reduces_S128x2048_S128 : S128x2048.Reduces [1] S128
  shapeCasts_S128_S128x1 : S128.ShapeCasts S128x1
  broadcasts_S128x1_S128x2048 : S128x1.Broadcasts S128x2048
  dot_S512x1024_S1024x1024_S512x1024_1_0_0_1_n_n_wf : DotDims.WF S512x1024 S1024x1024 S512x1024 [1] [0] [0] [1] [] []
  dot_S128x1024_S2048x1024_S128x2048_1_1_0_0_n_n_wf : DotDims.WF S128x1024 S2048x1024 S128x2048 [1] [1] [0] [0] [] []
  dot_S128x2048_S128x1024_S2048x1024_0_0_1_1_n_n_wf : DotDims.WF S128x2048 S128x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S65536x1024.size a
  hwx0_4 : ∀ i : grid0.Coords, EltTy.bits .f32 = 32 ∨ (Rect.block (s := S65536x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S65536x1024.size a
  hwx0_5 : ∀ i : grid0.Coords, EltTy.bits .f32 = 32 ∨ (Rect.block (s := S65536x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S65536x1024.size a
  hwx0_6 : ∀ i : grid0.Coords, EltTy.bits .bf16 = 32 ∨ (Rect.block (s := S65536x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S32x2048x1024.size a
  hwx1_0 : ∀ i : grid1.Coords, EltTy.bits .f32 = 32 ∨ (Rect.block (s := S32x2048x1024) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1024.size a ≤ S32x2048x1024.size a
  hwx1_1 : ∀ i : grid1.Coords, EltTy.bits .f32 = 32 ∨ (Rect.block (s := S32x2048x1024) S1x128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1024.size a ≤ S32x2048x1024.size a
  hwx1_2 : ∀ i : grid1.Coords, EltTy.bits .bf16 = 32 ∨ (Rect.block (s := S32x2048x1024) S1x128x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S32x2048x1024.size a
  hwx1_3 : ∀ i : grid1.Coords, EltTy.bits .f32 = 32 ∨ (Rect.block (s := S32x2048x1024) S1x2048x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S128x1024_S2048x1024_0_0_1_1_n_n : DotDims S128x2048 S128x1024 S2048x1024 where
  lhsContracting := [0]
  rhsContracting := [0]
  lhsNonContracting := [1]
  rhsNonContracting := [1]
  lhsBatch := []
  rhsBatch := []
  wf := dot_S128x2048_S128x1024_S2048x1024_0_0_1_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x2048x1024 : Shape := ⟨3, ![32, 2048, 1024]⟩
abbrev S1024x1024 : Shape := ⟨2, ![1024, 1024]⟩
abbrev S32x2048x2048 : Shape := ⟨3, ![32, 2048, 2048]⟩
abbrev S_ : Shape := ⟨0, ![]⟩
abbrev S32x2048 : Shape := ⟨2, ![32, 2048]⟩
abbrev S32x1x2048 : Shape := ⟨3, ![32, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S32x2048x1024, .f32⟩
  | .hbm, ⟨5, _⟩ => ⟨S32x2048x1024, .f32⟩
  | .hbm, ⟨6, _⟩ => ⟨S32x2048x1024, .f32⟩
  | .hbm, ⟨7, _⟩ => ⟨S32x2048x2048, .f32⟩
  | .hbm, ⟨8, _⟩ => ⟨S_, .f32⟩
  | .hbm, ⟨9, _⟩ => ⟨S32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S32x1x2048, .f32⟩
  | .hbm, ⟨14, _⟩ => ⟨S32x2048x2048, .f32⟩
  | .hbm, ⟨15, _⟩ => ⟨S32x2048x2048, .f32⟩
  | .hbm, ⟨16, _⟩ => ⟨S32x2048x2048, .f32⟩
  | .hbm, ⟨17, _⟩ => ⟨S_, .f32⟩
  | .hbm, ⟨18, _⟩ => ⟨S32x2048, .f32⟩
  | .hbm, ⟨19, _⟩ => ⟨S32x1x2048, .f32⟩
  | .hbm, ⟨20, _⟩ => ⟨S32x2048x2048, .f32⟩
  | .hbm, ⟨21, _⟩ => ⟨S32x2048x2048, .f32⟩
  | .hbm, ⟨22, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S32x2048x2048_S32x2048_d1 : S32x2048x2048.ReducesTo [1] S32x2048
  h_S_ : 0 < S_.numel
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S32x1x2048_S32x2048x2048_0_1_2 : S32x1x2048.BroadcastsInDim S32x2048x2048 (![0, 1, 2] : Fin 3 → Fin S32x2048x2048.rank)
  dot_S32x2048x1024_S1024x1024_S32x2048x1024_2_0_01_1_n_n_wf : DotDims.WF S32x2048x1024 S1024x1024 S32x2048x1024 [2] [0] [0, 1] [1] [] []
  dot_S32x2048x1024_S32x2048x1024_S32x2048x2048_2_2_1_1_0_0_wf : DotDims.WF S32x2048x1024 S32x2048x1024 S32x2048x2048 [2] [2] [1] [1] [0] [0]
  dot_S32x2048x2048_S32x2048x1024_S32x2048x1024_2_1_1_2_0_0_wf : DotDims.WF S32x2048x2048 S32x2048x1024 S32x2048x1024 [2] [1] [1] [2] [0] [0]

variable [Facts₀]

def dot_S32x2048x1024_S1024x1024_S32x2048x1024_2_0_01_1_n_n : DotDims S32x2048x1024 S1024x1024 S32x2048x1024 where
  lhsContracting := [2]
  rhsContracting := [0]
  lhsNonContracting := [0, 1]
  rhsNonContracting := [1]
  lhsBatch := []
  rhsBatch := []
  wf := dot_S32x2048x1024_S1024x1024_S32x2048x1024_2_0_01_1_n_n_wf
def dot_S32x2048x1024_S32x2048x1024_S32x2048x2048_2_2_1_1_0_0 : DotDims S32x2048x1024 S32x2048x1024 S32x2048x2048 where
  lhsContracting := [2]
  rhsContracting := [2]
  lhsNonContracting := [1]
  rhsNonContracting := [1]
  lhsBatch := [0]
  rhsBatch := [0]
  wf := dot_S32x2048x1024_S32x2048x1024_S32x2048x2048_2_2_1_1_0_0_wf
def dot_S32x2048x2048_S32x2048x1024_S32x2048x1024_2_1_1_2_0_0 : DotDims S32x2048x2048 S32x2048x1024 S32x2048x1024 where
  lhsContracting := [2]
  rhsContracting := [1]
  lhsNonContracting := [1]
  rhsNonContracting := [2]
  lhsBatch := [0]
  rhsBatch := [0]
  wf := dot_S32x2048x2048_S32x2048x1024_S32x2048x1024_2_1_1_2_0_0_wf

class Facts : Prop extends Facts₀ where

variable [Facts]
-- ==== Proof.WholeRun.lean ====
/-
  The run of the idealized kernel program with its RESULT array named.

  The program is four stretches in order: a host stretch (flatten the input, convert the third weight matrix), the
  projection kernel over its grid of 128 row blocks, a second host stretch (un-flatten the three projected arrays),
  and the attention kernel over its grid of 32 batches times 16 key tiles. Every weakly fair execution of it
  terminates, nothing faults, and in the final memory every buffer that outlives the kernels holds what the
  composition of the four stretches leaves there. Read at the result buffer this gives the result array as what the
  attention kernel's write-backs leave in it; read at the four arguments it gives them back unchanged.
-/
import proofs.«131218_j63677185131093_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at what the last stretch's
    boundary contents hold there, and the four argument arrays end as launched. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The result buffer is the attention kernel's output window's array: after the run it holds what that kernel's
    write-backs leave (the fold of the flushed blocks over the contents the kernel was entered with). -/
theorem result_eq (c : Dev nD) :
    W4 m ρ c (Proc.devRef .tc main_v6) = (dat1 (V3 m ρ) c).arrAt 3 cfg1.N :=
  W4_arr m ρ c 3

end Cert.KernelIdeal.WholeRun

end
-- ==== Proof.Stretches.lean ====
/-
  The two host stretches of the idealized kernel program, read as values.

  Before the projection kernel the host flattens the input x : [32, 2048, 1024] to [65536, 1024] — row
  2048 b + l of the flat array is row (b, l) of x — and converts the third weight matrix to a narrower float format,
  which over the extended reals changes nothing. Between the two kernels it un-flattens the three projected
  arrays back to [32, 2048, 1024]. A reshape keeps the row-major position of every entry.
-/
import proofs.«131218_j63677185131093_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Stretches

open Cert.KernelIdeal Cert.KernelIdeal.Gen
open Idealize.ShloMosaic Idealize.ShloMosaic.TcCoe Idealize.SL.Sem Idealize.ShloMosaic.ValueIdx

/-- Row `2048 b + l` of the flattened array: batch `b`, row `l`. -/
def flatRow (b : Fin 32) (l : Fin 2048) : Fin 65536 := ⟨b.val * 2048 + l.val, by have := b.isLt; have := l.isLt; omega⟩

@[simp] theorem flatRow_val (b : Fin 32) (l : Fin 2048) : (flatRow b l).val = b.val * 2048 + l.val := rfl

/-- The flattened array at `(2048 b + l, d)` is the array at `(b, l, d)`. -/
theorem flatten_apply {α : Type} (x : S32x2048x1024.Idx → α) (h : S32x2048x1024.ShapeCasts S65536x1024)
    (b : Fin 32) (l : Fin 2048) (d : Fin 1024) :
    shapeCast S65536x1024 x h (ix2 (flatRow b l) d) = x (ix3 b l d) :=
  shapeCast_apply x h _ _ (by
    rw [Shape.rowMajor_val_three, Shape.rowMajor_val_two]
    show (b.val * 2048 + l.val) * 1024 + d.val = (b.val * 2048 + l.val) * 1024 + d.val
    rfl)

/-- The un-flattened array at `(b, l, d)` is the flat array at `(2048 b + l, d)`. -/
theorem unflatten_apply {α : Type} (y : S65536x1024.Idx → α) (h : S65536x1024.ShapeCasts S32x2048x1024)
    (b : Fin 32) (l : Fin 2048) (d : Fin 1024) :
    shapeCast S32x2048x1024 y h (ix3 b l d) = y (ix2 (flatRow b l) d) :=
  shapeCast_apply y h _ _ (by
    rw [Shape.rowMajor_val_three, Shape.rowMajor_val_two]
    show (b.val * 2048 + l.val) * 1024 + d.val = (b.val * 2048 + l.val) * 1024 + d.val
    rfl)

variable (m : (ℓ : Loc nD τ sig) → Buf (Elt Ideal) ℓ) (ρ : Dev nD → PrngReg)

/-! ## What the projection kernel is entered with -/

/-- The flat input is the flattened argument `x`. -/
theorem entry_flat (c : Dev nD) :
    (V1 m ρ c main_v0 : S65536x1024.Idx → EReal)
      = shapeCast S65536x1024 (m ((c : Thread nD τ).loc main_arg0)) shapeCasts_S32x2048x1024_S65536x1024 := by
  show StableHlo.after hostOps0 (W0 m ρ c) (Proc.devRef .tc main_v0) = _
  after_results
  all_goals rfl

/-- The first weight matrix is the argument itself. -/
theorem entry_wq (c : Dev nD) :
    (V1 m ρ c main_arg1 : S1024x1024.Idx → EReal) = m ((c : Thread nD τ).loc main_arg1) := by
  show StableHlo.after hostOps0 (W0 m ρ c) (Proc.devRef .tc main_arg1) = _
  after_results
  all_goals rfl

/-- The second weight matrix is the argument itself. -/
theorem entry_wk (c : Dev nD) :
    (V1 m ρ c main_arg2 : S1024x1024.Idx → EReal) = m ((c : Thread nD τ).loc main_arg2) := by
  show StableHlo.after hostOps0 (W0 m ρ c) (Proc.devRef .tc main_arg2) = _
  after_results
  all_goals rfl

/-- The converted third weight matrix is, entry by entry, the argument: a change of float format is the identity on
    the extended reals. -/
theorem entry_wv (c : Dev nD) :
    (V1 m ρ c main_v1 : S1024x1024.Idx → EReal) = m ((c : Thread nD τ).loc main_arg3) := by
  show StableHlo.after hostOps0 (W0 m ρ c) (Proc.devRef .tc main_v1) = _
  after_results
  all_goals rfl

/-! ## What the attention kernel is entered with -/

/-- The queries are the un-flattened first output of the projection kernel. -/
theorem entry_q (c : Dev nD) :
    (V3 m ρ c main_v3 : S32x2048x1024.Idx → EReal)
      = shapeCast S32x2048x1024 ((dat0 (V1 m ρ) c).arrAt 4 cfg0.N) shapeCasts_S65536x1024_S32x2048x1024 := by
  show StableHlo.after hostOps1 (W2 m ρ c) (Proc.devRef .tc main_v3) = _
  after_results
  exact congrArg (fun y => shapeCast S32x2048x1024 y shapeCasts_S65536x1024_S32x2048x1024) (W2_arr m ρ c 4)

/-- The keys are the un-flattened second output of the projection kernel. -/
theorem entry_k (c : Dev nD) :
    (V3 m ρ c main_v4 : S32x2048x1024.Idx → EReal)
      = shapeCast S32x2048x1024 ((dat0 (V1 m ρ) c).arrAt 5 cfg0.N) shapeCasts_S65536x1024_S32x2048x1024 := by
  show StableHlo.after hostOps1 (W2 m ρ c) (Proc.devRef .tc main_v4) = _
  after_results
  exact congrArg (fun y => shapeCast S32x2048x1024 y shapeCasts_S65536x1024_S32x2048x1024) (W2_arr m ρ c 5)

/-- The values are the un-flattened third output of the projection kernel. -/
theorem entry_v (c : Dev nD) :
    (V3 m ρ c main_v5 : S32x2048x1024.Idx → EReal)
      = shapeCast S32x2048x1024 ((dat0 (V1 m ρ) c).arrAt 6 cfg0.N) shapeCasts_S65536x1024_S32x2048x1024 := by
  show StableHlo.after hostOps1 (W2 m ρ c) (Proc.devRef .tc main_v5) = _
  after_results
  exact congrArg (fun y => shapeCast S32x2048x1024 y shapeCasts_S65536x1024_S32x2048x1024) (W2_arr m ρ c 6)

end Cert.KernelIdeal.Stretches

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.ProjectionRegion.lean ====
/-
  What the projection region leaves in its three output arrays.

  The region walks the flat [65536, 1024] input in 128 row blocks of 512 rows. At each block it multiplies the
  block by three [1024, 1024] weight matrices (each product accumulated from zero over the 1024 columns of the
  block) and writes the three [512, 1024] products back to the same rows of three output arrays. Row `r` of the
  input lies in block `r / 512`, the blocks are disjoint and together they are all the rows, so each output array
  ends as the whole input times its weight matrix, entry by entry: the entry (r, q) is the sum over d < 1024 of
  input (r, d) * weight (d, q). The third product is taken from operands rounded to a narrower float format and is
  rounded again; over the extended reals a change of format is the identity, so it is the same sum.
-/
import proofs.«131218_j63677185131093_2_alg».proof.Proof.Gen.KernelIdeal.Frame
import proofs.«131218_j63677185131093_2_alg».proof.Proof.LibMatmulPlain
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.Projection

open Cert.KernelIdeal Cert.KernelIdeal.Gen Idealize.ShloMosaic.ValueIdx

/-- The rows of a flat [65536, 1024] array times a [1024, 1024] matrix, entry by entry. -/
def rowsTimes (X : S65536x1024.Idx → EReal) (W : S1024x1024.Idx → EReal) : S65536x1024.Idx → EReal :=
  fun i => ∑ d : Fin 1024, X (ValueIdx.ix2 (i 0) d) * W (ValueIdx.ix2 d (i 1))

/-! ## One block's product at an entry -/

/-- A [512, 1024] block times a [1024, 1024] matrix into the zero accumulator, at the entry `j`: row `j 0` of the
    block against column `j 1` of the matrix (whatever the operands' float formats and the requested precision). -/
theorem blockTimes_apply {φ₁ φ₂ : FTy} (prec : Option ContractPrecision) (x : FVec Ideal S512x1024 φ₁)
    (w : FVec Ideal S1024x1024 φ₂) (j : S512x1024.Idx) :
    matmul dot_S512x1024_S1024x1024_S512x1024_1_0_0_1_n_n prec x w (constant (F := Ideal) S512x1024 .f32 0x00000000#32) j
      = ∑ d : Fin 1024, x (ix2 (j 0) d) * w (ix2 d (j 1)) :=
  MatmulPlain.matmul_zero_apply prec x w j

/-- The block the three products share: the loaded block, re-laid to its own shape. -/
theorem sharedBlock (x0 : Vec Ideal S512x1024 .f32) : k0_pay1 x0 = x0 := shapeCast_self x0 _

/-- The first product's payload at an entry. -/
theorem firstProduct_apply (x0 : Vec Ideal S512x1024 .f32) (w : Vec Ideal S1024x1024 .f32) (j : S512x1024.Idx) :
    k0_pay2 x0 w j = ∑ d : Fin 1024, x0 (ix2 (j 0) d) * w (ix2 d (j 1)) := by
  show matmul dot_S512x1024_S1024x1024_S512x1024_1_0_0_1_n_n (some .fp32) (k0_pay1 x0) w
    (constant (F := Ideal) S512x1024 .f32 0x00000000#32) j = _
  rw [sharedBlock]
  exact blockTimes_apply (some .fp32) x0 w j

/-- The second product's payload at an entry. -/
theorem secondProduct_apply (x0 : Vec Ideal S512x1024 .f32) (w : Vec Ideal S1024x1024 .f32) (j : S512x1024.Idx) :
    k0_pay3 x0 w j = ∑ d : Fin 1024, x0 (ix2 (j 0) d) * w (ix2 d (j 1)) := by
  show matmul dot_S512x1024_S1024x1024_S512x1024_1_0_0_1_n_n (some .fp32) (k0_pay1 x0) w
    (constant (F := Ideal) S512x1024 .f32 0x00000000#32) j = _
  rw [sharedBlock]
  exact blockTimes_apply (some .fp32) x0 w j

/-- The third product's payload at an entry: both roundings and the re-laying of the matrix to its own shape are
    the identity over the extended reals. -/
theorem thirdProduct_apply (x0 : Vec Ideal S512x1024 .f32) (w : Vec Ideal S1024x1024 .bf16) (j : S512x1024.Idx) :
    k0_pay4 x0 w j = ∑ d : Fin 1024, x0 (ix2 (j 0) d) * w (ix2 d (j 1)) := by
  show truncf .bf16 (matmul dot_S512x1024_S1024x1024_S512x1024_1_0_0_1_n_n none
      (truncf .bf16 (k0_pay1 x0) bitsLt_bf16_f32)
      (shapeCast S1024x1024 w shapeCasts_S1024x1024_S1024x1024)
      (constant (F := Ideal) S512x1024 .f32 0x00000000#32)) bitsLt_bf16_f32 j = _
  rw [sharedBlock, shapeCast_self]
  refine (truncf_apply _ bitsLt_bf16_f32 j).trans ?_
  exact blockTimes_apply (φ₁ := .bf16) (φ₂ := .bf16) none (truncf .bf16 x0 bitsLt_bf16_f32) w j

/-! ## The index maps, decided once over the grid -/

theorem zeroOffsets : (![0, 0] : Fin 2 → Nat) = fun _ => 0 := funext fun a => by fin_cases a <;> rfl

/-- At point `t` the input window and the three output windows sit at row block `t`, column block 0, and the three
    weight windows at block (0, 0): the whole matrix. -/
theorem blockIndices : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-! ## A block's product is a block of the whole product -/

/-- If `x` is the row block `T` of `X` (its entry (r, d) is `X`'s entry (512 T + r, d)), then `x` times `W` at the
    entry `j` is `X` times `W` at the entry of the same row and column of the whole array. -/
theorem blockOfRowsTimes (X : S65536x1024.Idx → EReal) (W : S1024x1024.Idx → EReal) (x : S512x1024.Idx → EReal) (T : Nat)
    (hx : ∀ (y : S512x1024.Idx) (i : S65536x1024.Idx), (i 0).val = 512 * T + (y 0).val → (i 1).val = (y 1).val → x y = X i)
    (j : S512x1024.Idx) (i : S65536x1024.Idx) (h0 : (i 0).val = 512 * T + (j 0).val) (h1 : (i 1).val = (j 1).val) :
    ∑ d : Fin 1024, x (ix2 (j 0) d) * W (ix2 d (j 1)) = rowsTimes X W i := by
  unfold rowsTimes
  refine Finset.sum_congr rfl fun d _ => ?_
  have e1 : (ix2 d (j 1) : S1024x1024.Idx) = ix2 d (i 1) := by
    funext a
    match a with
    | ⟨0, _⟩ => rfl
    | ⟨1, _⟩ => exact Fin.ext h1.symm
  exact congrArg₂ (· * ·) (hx (ix2 (j 0) d) (ix2 (i 0) d) h0 rfl) (congrArg W e1)

/-! ## The input windows' blocks, read off the arrays the region is entered with -/

variable (V : (c : Dev nD) → (b : Ref sig .tc) → Buf (Elt Ideal) ((c : Thread nD τ).loc b))

/-- Row block `t` of the flat input: its entry (r, d) is the array's entry (512 t + r, d). -/
theorem rowBlock_apply (c : Dev nD) (t : Fin cfg0.N) (y : S512x1024.Idx) (i : S65536x1024.Idx)
    (h0 : (i 0).val = 512 * t.val + (y 0).val) (h1 : (i 1).val = (y 1).val) :
    (iblk0 V c 0 t : Vec Ideal S512x1024 .f32) y = (V c main_v0 : S65536x1024.Idx → EReal) i := by
  obtain ⟨⟨e0, e1⟩, -⟩ := blockIndices t
  show V c main_v0 (((cfg0.win 0).blk t).view.emb y) = V c main_v0 i
  have h : ((cfg0.win 0).blk t).view.emb y = i := by
    funext a; apply Fin.ext
    match a with
    | ⟨0, _⟩ => show win0_0.index t (0 : Fin 2) * 512 + 1 * (y 0).val = (i 0).val; omega
    | ⟨1, _⟩ => show win0_0.index t (1 : Fin 2) * 1024 + 1 * (y 1).val = (i 1).val; omega
  rw [h]

/-- Each weight window's one block is its whole matrix. -/
theorem firstWeights (c : Dev nD) (t : Fin cfg0.N) : (iblk0 V c 1 t : Vec Ideal S1024x1024 .f32) = V c main_arg1 := by
  obtain ⟨-, ⟨e0, e1⟩, -⟩ := blockIndices t
  funext y
  show V c main_arg1 (((cfg0.win 1).blk t).view.emb y) = V c main_arg1 y
  have h : ((cfg0.win 1).blk t).view.emb y = y := by
    funext a; apply Fin.ext
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  rw [h]
theorem secondWeights (c : Dev nD) (t : Fin cfg0.N) : (iblk0 V c 2 t : Vec Ideal S1024x1024 .f32) = V c main_arg2 := by
  obtain ⟨-, -, ⟨e0, e1⟩, -⟩ := blockIndices t
  funext y
  show V c main_arg2 (((cfg0.win 2).blk t).view.emb y) = V c main_arg2 y
  have h : ((cfg0.win 2).blk t).view.emb y = y := by
    funext a; apply Fin.ext
    match a with
    | ⟨0, _⟩ => show win0_2.index t (0 : Fin 2) * 1024 + 1 * (y 0).val = (y 0).val; omega
    | ⟨1, _⟩ => show win0_2.index t (1 : Fin 2) * 1024 + 1 * (y 1).val = (y 1).val; omega
  rw [h]
theorem thirdWeights (c : Dev nD) (t : Fin cfg0.N) : (iblk0 V c 3 t : Vec Ideal S1024x1024 .bf16) = V c main_v1 := by
  obtain ⟨-, -, -, ⟨e0, e1⟩, -⟩ := blockIndices t
  funext y
  show V c main_v1 (((cfg0.win 3).blk t).view.emb y) = V c main_v1 y
  have h : ((cfg0.win 3).blk t).view.emb y = y := by
    funext a; apply Fin.ext
    match a with
    | ⟨0, _⟩ => show win0_3.index t (0 : Fin 2) * 1024 + 1 * (y 0).val = (y 0).val; omega
    | ⟨1, _⟩ => show win0_3.index t (1 : Fin 2) * 1024 + 1 * (y 1).val = (y 1).val; omega
  rw [h]

/-! ## The first output -/

/-- What point `t` writes back to the first output is block `t` of the input times the first weight matrix. -/
theorem flushedFirst (c : Dev nD) (t : Fin cfg0.N) :
    (dat0 V c).flushed 4 t
      = ((cfg0.win 4).blk t).view.read (Elt Ideal) (rowsTimes (V c main_v0) (V c main_arg1)) := by
  show (cfg0.win 4).cut (grid0.coords t) ((dat0 V c).after 4 t) = _
  rw [after0_4]
  unfold out0_4
  rw [View.canon_unit_zero zeroOffsets]
  simp only [View.ld_unit_zero (S := S512x1024) zeroOffsets, View.ld_unit_zero (S := S1024x1024) zeroOffsets]
  rw [firstWeights V c t]
  obtain ⟨-, -, -, -, ⟨e0, e1⟩, -⟩ := blockIndices t
  funext j
  show k0_pay2 (iblk0 V c 0 t) (V c main_arg1) j
    = rowsTimes (V c main_v0) (V c main_arg1) (((cfg0.win 4).blk t).view.emb j)
  refine (firstProduct_apply (iblk0 V c 0 t) (V c main_arg1) j).trans ?_
  refine blockOfRowsTimes (V c main_v0) (V c main_arg1) (iblk0 V c 0 t) t.val
    (fun y i => rowBlock_apply V c t y i) j (((cfg0.win 4).blk t).view.emb j) ?_ ?_
  · show win0_4.index t (0 : Fin 2) * 512 + 1 * (j 0).val = 512 * t.val + (j 0).val; omega
  · show win0_4.index t (1 : Fin 2) * 1024 + 1 * (j 1).val = (j 1).val; omega

/-- An entry of the first output array is in point `t`'s block iff each coordinate is in the block's range. -/
theorem memFirstBlock (t : Fin cfg0.N) (i : S65536x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v2_0).slice (win0_4.rect t)).set ↔ _
  rw [View.set_slice_whole, Rect.mem_set_unit]
  exact Iff.rfl

/-- Row `r` of the first output is written back by point `r / 512`. -/
theorem coveredFirst (i : S65536x1024.Idx) :
    ∃ t : Fin cfg0.N, (cfg0.win 4).flush t = true ∧ i ∈ ((cfg0.win 4).blk t).view.set := by
  have hi0 : (i 0).val < 65536 := (i 0).isLt
  have hi1 : (i 1).val < 1024 := (i 1).isLt
  have hN : grid0.N = 128 := N_0
  have ht : (i 0).val / 512 < grid0.N := by rw [hN]; omega
  obtain ⟨-, -, -, -, ⟨e0, e1⟩, -⟩ := blockIndices ⟨(i 0).val / 512, ht⟩
  refine ⟨⟨(i 0).val / 512, ht⟩, flush0_4 _, ?_⟩
  rw [memFirstBlock]
  intro a
  match a with
  | ⟨0, _⟩ =>
    show win0_4.index ⟨(i 0).val / 512, ht⟩ (0 : Fin 2) * 512 ≤ (i 0).val
      ∧ (i 0).val < win0_4.index ⟨(i 0).val / 512, ht⟩ (0 : Fin 2) * 512 + 512
    have e0' : win0_4.index ⟨(i 0).val / 512, ht⟩ (0 : Fin 2) = (i 0).val / 512 := e0
    omega
  | ⟨1, _⟩ =>
    show win0_4.index ⟨(i 0).val / 512, ht⟩ (1 : Fin 2) * 1024 ≤ (i 1).val
      ∧ (i 1).val < win0_4.index ⟨(i 0).val / 512, ht⟩ (1 : Fin 2) * 1024 + 1024
    omega

/-- The first output array after the region: the whole input times the first weight matrix. -/
theorem final4 (c : Dev nD) :
    (dat0 (F := Ideal) V c).arrAt 4 cfg0.N = rowsTimes (V c main_v0) (V c main_arg1) :=
  (dat0 V c).arrAt_eq_of_cover 4 (rowsTimes (V c main_v0) (V c main_arg1)) (fun t _ => flushedFirst V c t) coveredFirst

/-! ## The second output -/

/-- What point `t` writes back to the second output is block `t` of the input times the second weight matrix. -/
theorem flushedSecond (c : Dev nD) (t : Fin cfg0.N) :
    (dat0 V c).flushed 5 t
      = ((cfg0.win 5).blk t).view.read (Elt Ideal) (rowsTimes (V c main_v0) (V c main_arg2)) := by
  show (cfg0.win 5).cut (grid0.coords t) ((dat0 V c).after 5 t) = _
  rw [after0_5]
  unfold out0_5
  rw [View.canon_unit_zero zeroOffsets]
  simp only [View.ld_unit_zero (S := S512x1024) zeroOffsets, View.ld_unit_zero (S := S1024x1024) zeroOffsets]
  rw [secondWeights V c t]
  obtain ⟨-, -, -, -, -, ⟨e0, e1⟩, -⟩ := blockIndices t
  funext j
  show k0_pay3 (iblk0 V c 0 t) (V c main_arg2) j
    = rowsTimes (V c main_v0) (V c main_arg2) (((cfg0.win 5).blk t).view.emb j)
  refine (secondProduct_apply (iblk0 V c 0 t) (V c main_arg2) j).trans ?_
  refine blockOfRowsTimes (V c main_v0) (V c main_arg2) (iblk0 V c 0 t) t.val
    (fun y i => rowBlock_apply V c t y i) j (((cfg0.win 5).blk t).view.emb j) ?_ ?_
  · show win0_5.index t (0 : Fin 2) * 512 + 1 * (j 0).val = 512 * t.val + (j 0).val; omega
  · show win0_5.index t (1 : Fin 2) * 1024 + 1 * (j 1).val = (j 1).val; omega

/-- An entry of the second output array is in point `t`'s block iff each coordinate is in the block's range. -/
theorem memSecondBlock (t : Fin cfg0.N) (i : S65536x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v2_1).slice (win0_5.rect t)).set ↔ _
  rw [View.set_slice_whole, Rect.mem_set_unit]
  exact Iff.rfl

/-- Row `r` of the second output is written back by point `r / 512`. -/
theorem coveredSecond (i : S65536x1024.Idx) :
    ∃ t : Fin cfg0.N, (cfg0.win 5).flush t = true ∧ i ∈ ((cfg0.win 5).blk t).view.set := by
  have hi0 : (i 0).val < 65536 := (i 0).isLt
  have hi1 : (i 1).val < 1024 := (i 1).isLt
  have hN : grid0.N = 128 := N_0
  have ht : (i 0).val / 512 < grid0.N := by rw [hN]; omega
  obtain ⟨-, -, -, -, -, ⟨e0, e1⟩, -⟩ := blockIndices ⟨(i 0).val / 512, ht⟩
  refine ⟨⟨(i 0).val / 512, ht⟩, flush0_5 _, ?_⟩
  rw [memSecondBlock]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    have e0' : win0_5.index ⟨(i 0).val / 512, ht⟩ (0 : Fin 2) = (i 0).val / 512 := e0
    omega
  | ⟨1, _⟩ =>
    show win0_5.index ⟨(i 0).val / 512, ht⟩ (1 : Fin 2) * 1024 ≤ (i 1).val
      ∧ (i 1).val < win0_5.index ⟨(i 0).val / 512, ht⟩ (1 : Fin 2) * 1024 + 1024
    omega

/-- The second output array after the region: the whole input times the second weight matrix. -/
theorem final5 (c : Dev nD) :
    (dat0 (F := Ideal) V c).arrAt 5 cfg0.N = rowsTimes (V c main_v0) (V c main_arg2) :=
  (dat0 V c).arrAt_eq_of_cover 5 (rowsTimes (V c main_v0) (V c main_arg2)) (fun t _ => flushedSecond V c t) coveredSecond

/-! ## The third output -/

/-- What point `t` writes back to the third output is block `t` of the input times the third weight matrix. -/
theorem flushedThird (c : Dev nD) (t : Fin cfg0.N) :
    (dat0 V c).flushed 6 t
      = ((cfg0.win 6).blk t).view.read (Elt Ideal) (rowsTimes (V c main_v0) (V c main_v1)) := by
  show (cfg0.win 6).cut (grid0.coords t) ((dat0 V c).after 6 t) = _
  rw [after0_6]
  unfold out0_6
  rw [View.canon_unit_zero zeroOffsets]
  simp only [View.ld_unit_zero (S := S512x1024) zeroOffsets, View.ld_unit_zero (S := S1024x1024) zeroOffsets]
  rw [thirdWeights V c t]
  obtain ⟨-, -, -, -, -, -, ⟨e0, e1⟩⟩ := blockIndices t
  funext j
  show k0_pay4 (iblk0 V c 0 t) (V c main_v1) j
    = rowsTimes (V c main_v0) (V c main_v1) (((cfg0.win 6).blk t).view.emb j)
  refine (thirdProduct_apply (iblk0 V c 0 t) (V c main_v1) j).trans ?_
  refine blockOfRowsTimes (V c main_v0) (V c main_v1) (iblk0 V c 0 t) t.val
    (fun y i => rowBlock_apply V c t y i) j (((cfg0.win 6).blk t).view.emb j) ?_ ?_
  · show win0_6.index t (0 : Fin 2) * 512 + 1 * (j 0).val = 512 * t.val + (j 0).val; omega
  · show win0_6.index t (1 : Fin 2) * 1024 + 1 * (j 1).val = (j 1).val; omega

/-- An entry of the third output array is in point `t`'s block iff each coordinate is in the block's range. -/
theorem memThirdBlock (t : Fin cfg0.N) (i : S65536x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v2_2).slice (win0_6.rect t)).set ↔ _
  rw [View.set_slice_whole, Rect.mem_set_unit]
  exact Iff.rfl

/-- Row `r` of the third output is written back by point `r / 512`. -/
theorem coveredThird (i : S65536x1024.Idx) :
    ∃ t : Fin cfg0.N, (cfg0.win 6).flush t = true ∧ i ∈ ((cfg0.win 6).blk t).view.set := by
  have hi0 : (i 0).val < 65536 := (i 0).isLt
  have hi1 : (i 1).val < 1024 := (i 1).isLt
  have hN : grid0.N = 128 := N_0
  have ht : (i 0).val / 512 < grid0.N := by rw [hN]; omega
  obtain ⟨-, -, -, -, -, -, ⟨e0, e1⟩⟩ := blockIndices ⟨(i 0).val / 512, ht⟩
  refine ⟨⟨(i 0).val / 512, ht⟩, flush0_6 _, ?_⟩
  rw [memThirdBlock]
  intro a
  match a with
  | ⟨0, _⟩ =>
    show win0_6.index ⟨(i 0).val / 512, ht⟩ (0 : Fin 2) * 512 ≤ (i 0).val
      ∧ (i 0).val < win0_6.index ⟨(i 0).val / 512, ht⟩ (0 : Fin 2) * 512 + 512
    have e0' : win0_6.index ⟨(i 0).val / 512, ht⟩ (0 : Fin 2) = (i 0).val / 512 := e0
    omega
  | ⟨1, _⟩ =>
    show win0_6.index ⟨(i 0).val / 512, ht⟩ (1 : Fin 2) * 1024 ≤ (i 1).val
      ∧ (i 1).val < win0_6.index ⟨(i 0).val / 512, ht⟩ (1 : Fin 2) * 1024 + 1024
    omega

/-- The third output array after the region: the whole input times the third weight matrix. -/
theorem final6 (c : Dev nD) :
    (dat0 (F := Ideal) V c).arrAt 6 cfg0.N = rowsTimes (V c main_v0) (V c main_v1) :=
  (dat0 V c).arrAt_eq_of_cover 6 (rowsTimes (V c main_v0) (V c main_v1)) (fun t _ => flushedThird V c t) coveredThird

end Cert.KernelIdeal.Projection

end
-- ==== Proof.LibSumRegroup.lean ====
/-
  Finite sums in a commutative monoid, regrouped (a general lemma file: it imports Mathlib only and mentions no program).

  The kernel adds the squared differences tile by tile and lane by lane; the reference adds them all at once.
  Both are the same finite family of summands, and in a commutative monoid (the extended reals under addition are
  one: `+` is commutative and associative there, infinities included) a finite sum does not depend on how the
  family is cut up or in which order it is run through.  No finiteness of the summands is used anywhere.

  * `sum_range_mul`: `m * n` consecutive terms are `m` runs of `n` terms.
  * `regroup`: rows `(p * K + k) * R + r` (half `p`, step `k`, row `r` inside the tile), summed for each lane
    `l` first over the rows of a tile, then over the steps, then over the lanes, then over the halves, exhaust
    the `P * K * R` rows times `L` lanes exactly once.
  * `regroup_fin`: the same over `Fin`-indexed families.
-/
import Mathlib.Algebra.BigOperators.Group.Finset.Basic
import Mathlib.Algebra.BigOperators.Intervals
import Mathlib.Algebra.BigOperators.Fin

namespace SumLaw

open Finset

variable {M : Type*} [AddCommMonoid M]

/-- `m * n` consecutive terms are `m` runs of `n` terms. -/
theorem sum_range_mul (f : ℕ → M) (m n : ℕ) :
    ∑ x ∈ range (m * n), f x = ∑ i ∈ range m, ∑ r ∈ range n, f (i * n + r) := by
  induction m with
  | zero => simp
  | succ m ih => rw [Nat.succ_mul, sum_range_add, ih, sum_range_succ]

/-- Tile by tile and lane by lane is row by row: every (row, lane) pair is met exactly once. -/
theorem regroup (f : ℕ → ℕ → M) (P K R L : ℕ) :
    ∑ p ∈ range P, ∑ l ∈ range L, ∑ k ∈ range K, ∑ r ∈ range R, f ((p * K + k) * R + r) l
      = ∑ row ∈ range (P * K * R), ∑ l ∈ range L, f row l := by
  rw [sum_range_mul (fun row => ∑ l ∈ range L, f row l) (P * K) R,
    sum_range_mul (fun i => ∑ r ∈ range R, ∑ l ∈ range L, f (i * R + r) l) P K]
  refine sum_congr rfl fun p _ => ?_
  refine sum_comm.trans (sum_congr rfl fun k _ => ?_)
  exact sum_comm

/-- `regroup` for families indexed by `Fin`: `idx p k r` is row `(p * K + k) * R + r`. -/
theorem regroup_fin {P K R L N : ℕ} (hN : P * K * R = N) (g : Fin N → Fin L → M)
    (idx : Fin P → Fin K → Fin R → Fin N)
    (hidx : ∀ p k r, (idx p k r).val = (p.val * K + k.val) * R + r.val) :
    ∑ p : Fin P, ∑ l : Fin L, ∑ k : Fin K, ∑ r : Fin R, g (idx p k r) l
      = ∑ row : Fin N, ∑ l : Fin L, g row l := by
  subst hN
  let f : ℕ → ℕ → M := fun a b => if h : a < P * K * R ∧ b < L then g ⟨a, h.1⟩ ⟨b, h.2⟩ else 0
  have e : ∀ (a : Fin (P * K * R)) (l : Fin L), g a l = f a.val l := fun a l => by
    simp only [f, dif_pos (And.intro a.isLt l.isLt)]
  have key := regroup f P K R L
  simp only [Finset.sum_range] at key
  have lhs : ∀ (p : Fin P) (l : Fin L) (k : Fin K) (r : Fin R),
      g (idx p k r) l = f ((p.val * K + k.val) * R + r.val) l.val := fun p l k r => by rw [e, hidx]
  simp only [lhs, e]
  exact key

end SumLaw
-- ==== Proof.Attention.lean ====
/-
  Attention whose softmax runs over the QUERY axis, as one function of the four argument arrays, over the extended
  reals, and the one law about finite sums that joins a key-tiled evaluation to the untiled one.

  With x : [32, 2048, 1024] and three weight matrices wq, wk, wv : [1024, 1024]:
    Q = x · wq,  K = x · wk,  V = x · wv                  (contraction over the model axis d)
    A[b, l, m]  = Σ_d Q[b, l, d] · K[b, m, d]              (unscaled scores; l a query row, m a key row)
    c[b, m]     = max_l A[b, l, m]                         (a fold of max from -∞ over the 2048 query rows)
    E[b, l, m]  = exp (A[b, l, m] - c[b, m])
    S[b, m]     = Σ_l E[b, l, m]
    P[b, l, m]  = E[b, l, m] / S[b, m]                     (each key COLUMN of A normalised over the queries)
    out[b, l, d] = Σ_m P[b, l, m] · V[b, m, d].
  Everything is an extended real; nothing here needs the entries to be finite: the only rearrangement used is that
  a sum over the 2048 key rows may be taken as 16 consecutive runs of 128 rows, which holds in any commutative
  monoid (addition of extended reals is commutative and associative, infinities included).
-/
import Idealize.ShloMosaic.PureOps.Ideal
import Idealize.ShloMosaic.PureOps.Ideal.Laws
import proofs.«131218_j63677185131093_2_alg».proof.Proof.LibSumRegroup

noncomputable section

open scoped BigOperators

namespace ColumnSoftmaxAttention

open Idealize.ShloMosaic

/-- `-∞`, the value both programs start their maxima from. -/
abbrev negInf : EReal := Ideal.ofBits .f32 0xFF800000#32

/-- A projection: `(x · w)[b, l, e] = Σ_d x[b, l, d] · w[d, e]`. -/
def proj (x : Fin 32 → Fin 2048 → Fin 1024 → EReal) (w : Fin 1024 → Fin 1024 → EReal)
    (b : Fin 32) (l : Fin 2048) (e : Fin 1024) : EReal :=
  ∑ d : Fin 1024, x b l d * w d e

/-- The unscaled scores: `A[b, l, m] = Σ_d Q[b, l, d] · K[b, m, d]`. -/
def score (Q K : Fin 32 → Fin 2048 → Fin 1024 → EReal) (b : Fin 32) (l m : Fin 2048) : EReal :=
  ∑ d : Fin 1024, Q b l d * K b m d

/-- The largest score of key column `m` over all query rows. -/
def colMax (A : Fin 32 → Fin 2048 → Fin 2048 → EReal) (b : Fin 32) (m : Fin 2048) : EReal :=
  (Finset.univ : Finset (Fin 2048)).fold max negInf (fun l => A b l m)

/-- The shifted exponential of a score. -/
def expo (A : Fin 32 → Fin 2048 → Fin 2048 → EReal) (b : Fin 32) (l m : Fin 2048) : EReal :=
  Ideal.exp (A b l m - colMax A b m)

/-- The normaliser of key column `m`: the sum of its shifted exponentials over all query rows. -/
def colSum (A : Fin 32 → Fin 2048 → Fin 2048 → EReal) (b : Fin 32) (m : Fin 2048) : EReal :=
  ∑ l : Fin 2048, expo A b l m

/-- The softmax over the query axis. -/
def prob (A : Fin 32 → Fin 2048 → Fin 2048 → EReal) (b : Fin 32) (l m : Fin 2048) : EReal :=
  Ideal.div (expo A b l m) (colSum A b m)

/-- The weighted sum of value rows: `out[b, l, d] = Σ_m P[b, l, m] · V[b, m, d]`. -/
def attend (P : Fin 32 → Fin 2048 → Fin 2048 → EReal) (V : Fin 32 → Fin 2048 → Fin 1024 → EReal)
    (b : Fin 32) (l : Fin 2048) (d : Fin 1024) : EReal :=
  ∑ m : Fin 2048, P b l m * V b m d

/-- The whole computation from the projected arrays. -/
def ofQKV (Q K V : Fin 32 → Fin 2048 → Fin 1024 → EReal) : Fin 32 → Fin 2048 → Fin 1024 → EReal :=
  attend (prob (score Q K)) V

/-- The whole computation from the arguments. -/
def attention (x : Fin 32 → Fin 2048 → Fin 1024 → EReal) (wq wk wv : Fin 1024 → Fin 1024 → EReal) :
    Fin 32 → Fin 2048 → Fin 1024 → EReal :=
  ofQKV (proj x wq) (proj x wk) (proj x wv)

/-! ## Key tiles -/

/-- Key row `128 j + r`: row `r` of key tile `j`. -/
def keyRow (j : Fin 16) (r : Fin 128) : Fin 2048 := ⟨j.val * 128 + r.val, by have := j.isLt; have := r.isLt; omega⟩

@[simp] theorem keyRow_val (j : Fin 16) (r : Fin 128) : (keyRow j r).val = j.val * 128 + r.val := rfl

/-- Summing tile by tile is summing over all key rows: the 16 tiles of 128 rows are the 2048 rows, each once. -/
theorem sum_tiles (h : Fin 2048 → EReal) : ∑ j : Fin 16, ∑ r : Fin 128, h (keyRow j r) = ∑ m : Fin 2048, h m := by
  let g : ℕ → EReal := fun n => if hn : n < 2048 then h ⟨n, hn⟩ else 0
  have eg : ∀ m : Fin 2048, h m = g m.val := fun m => by simp only [g, dif_pos m.isLt]
  have key := SumLaw.sum_range_mul g 16 128
  rw [show (16 * 128 : ℕ) = 2048 from rfl] at key
  simp only [Finset.sum_range] at key
  simp only [eg]
  exact key.symm

/-- The tile-by-tile evaluation of the weighted sum, accumulated from zero in tile order, one tile after the other:
    after tile `n` the accumulator holds the sum of the first `n + 1` tiles' contributions. -/
theorem sum_range_tiles (p : ℕ → EReal) : ∀ n : ℕ, (∑ i ∈ Finset.range (n + 1), p i) = (∑ i ∈ Finset.range n, p i) + p n :=
  fun n => Finset.sum_range_succ p n

end ColumnSoftmaxAttention

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.LibMatmulTN.lean ====
/-
  A transposed matrix times a matrix, read at an index, over the extended reals.

  With the dimension numbers "contract axis 0 of the left operand against axis 0 of the right operand, no batch
  axis", the product of a [K, M] matrix `A` and a [K, N] matrix `B` is `Aᵀ · B`: its entry at `(a, b)` is
  `Σ_c A[c, a] · B[c, b]`. Stated for the matrix unit accumulating into any accumulator (the accumulator's entry plus
  the sum) and into zeros (the sum alone), for arbitrary extents and operand formats (a change of format is the
  identity here).
-/
import Idealize.ShloMosaic.PureOps.Ideal
import Idealize.ShloMosaic.PureOps.Ideal.Laws
import Idealize.ShloMosaic.Lib.ValueIdx

noncomputable section

open scoped BigOperators

namespace Idealize.ShloMosaic.MatmulTN

open Idealize.ShloMosaic Idealize.ShloMosaic.ValueIdx

variable {M K N : ℕ} {φ₁ φ₂ : FTy}

/-- The dimension numbers of `Aᵀ · B`. -/
abbrev dims (w : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], w⟩

/-- The left operand of `Aᵀ · B` is read at `(c, a)` for the contraction position `c`, -/
theorem lhsIdx_eq (w : DotDims.WF ⟨2, ![K, M]⟩ ⟨2, ![K, N]⟩ ⟨2, ![M, N]⟩ [0] [0] [1] [1] [] []) (a : Fin M) (b : Fin N)
    (c : Fin K) :
    (dims w).lhsIdx (ix2 a b) ((contrEquiv1 (dims w) K rfl rfl).symm c) = ix2 c a := by
  funext ax
  apply Fin.ext
  match ax with
  | ⟨0, _⟩ =>
    refine ((dims w).lhsIdx_val_of_single (cl := 0) rfl (ix2 a b) _).trans ?_
    exact contrEquiv1_symm_val (dims w) K rfl rfl c
  | ⟨1, _⟩ => simp [DotDims.lhsIdx]; rfl

/-- and the right operand at `(c, b)`. -/
theorem rhsIdx_eq (w : DotDims.WF ⟨2, ![K, M]⟩ ⟨2, ![K, N]⟩ ⟨2, ![M, N]⟩ [0] [0] [1] [1] [] []) (a : Fin M) (b : Fin N)
    (c : Fin K) :
    (dims w).rhsIdx (ix2 a b) ((contrEquiv1 (dims w) K rfl rfl).symm c) = ix2 c b := by
  funext ax
  apply Fin.ext
  match ax with
  | ⟨0, _⟩ =>
    refine ((dims w).rhsIdx_val_of_single (cr := 0) rfl (ix2 a b) _).trans ?_
    exact contrEquiv1_symm_val (dims w) K rfl rfl c
  | ⟨1, _⟩ => simp [DotDims.rhsIdx]; rfl

/-- `Aᵀ · B` accumulated into `acc`, at `(a, b)`: the accumulator's entry plus `Σ_c A[c, a] · B[c, b]`. -/
theorem matmul_apply (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂)
    (acc : FVec Ideal ⟨2, ![M, N]⟩ .f32) (a : Fin M) (b : Fin N) :
    FloatOps.matmul (dims w) prec A B acc (ix2 a b) = acc (ix2 a b) + ∑ c : Fin K, A (ix2 c a) * B (ix2 c b) := by
  rw [Ideal.matmul_apply, ← Equiv.sum_comp (contrEquiv1 (dims w) K rfl rfl).symm]
  refine congrArg (acc (ix2 a b) + ·) (Finset.sum_congr rfl fun c _ => ?_)
  rw [lhsIdx_eq w a b c, rhsIdx_eq w a b c]

/-- `Aᵀ · B` into the zero accumulator, at `(a, b)`: `Σ_c A[c, a] · B[c, b]`. -/
theorem matmul_zero_apply (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂) (a : Fin M) (b : Fin N) :
    FloatOps.matmul (dims w) prec A B (constant ⟨2, ![M, N]⟩ .f32 0x00000000#32) (ix2 a b)
      = ∑ c : Fin K, A (ix2 c a) * B (ix2 c b) := by
  rw [matmul_apply]
  show Ideal.ofBits .f32 0x00000000#32 + _ = _
  rw [Ideal.ofBits_zero_f32, zero_add]

end Idealize.ShloMosaic.MatmulTN

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.AttentionTile.lean ====
/-
  One step of the attention kernel's arithmetic, read entry by entry.

  At a grid point the kernel holds all 2048 query rows of one batch (`q`), one tile of 128 key rows (`k`) and the
  matching 128 value rows (`v`), and the output block accumulated so far (`acc`). It forms the tile's scores
  s[r, l] = Σ_e k[r, e] · q[l, e], normalises every row r of s over the 2048 queries l (maximum, shifted exponential,
  sum, quotient: the softmax of that score column), and adds Σ_r p[r, l] · v[r, d] to acc[l, d]. So the new block at
  (l, d) is the old one plus the tile's share of the weighted sum of value rows. Changes of float format are the
  identity on the extended reals.
-/
import proofs.«131218_j63677185131093_2_alg».proof.Proof.Gen.KernelIdeal.Skeleton
import proofs.«131218_j63677185131093_2_alg».proof.Proof.Attention
import proofs.«131218_j63677185131093_2_alg».proof.Proof.LibMatmulT
import proofs.«131218_j63677185131093_2_alg».proof.Proof.LibMatmulTN
import proofs.«131218_j63677185131093_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx ColumnSoftmaxAttention

/-- The softmax of one column of scores (one key row against all 2048 query rows), at query row `l`. -/
def colSoftmax (a : Fin 2048 → EReal) (l : Fin 2048) : EReal :=
  Ideal.div (Ideal.exp (a l - (Finset.univ : Finset (Fin 2048)).fold max negInf a))
    (∑ l' : Fin 2048, Ideal.exp (a l' - (Finset.univ : Finset (Fin 2048)).fold max negInf a))

/-- The specification's softmax over the query axis is the softmax of the score column. -/
theorem prob_eq (A : Fin 32 → Fin 2048 → Fin 2048 → EReal) (b : Fin 32) (l m : Fin 2048) :
    prob A b l m = colSoftmax (fun l' => A b l' m) l := rfl

/-! ## The reductions along a row of the score tile -/

/-- Row `r` of the tile with the query coordinate `k` put back is the entry `(r, k)`. -/
theorem lift_row (r : Fin 128) (k : Fin 2048) : reduces_S128x2048_S128.lift (ix1 r) k = ix2 r k := by
  funext a
  apply Fin.ext
  match a with
  | ⟨0, _⟩ => rfl
  | ⟨1, _⟩ => rfl

/-- The maximum along row `r`: the fold of `max` from `-∞` over the 2048 entries of the row. -/
theorem rowMax_apply (s : FVec Ideal S128x2048 .f32) (hφ : FKind.Formats .f32)
    (hacc : (0xFF800000#32 : BitVec 32) = FKind.maximumf.neutral .f32 hφ) (r : Fin 128) :
    multiReduction .maximumf [1] S128 s 0xFF800000#32 reduces_S128x2048_S128 hφ hacc (ix1 r)
      = (Finset.univ : Finset (Fin 2048)).fold max negInf (fun l => s (ix2 r l)) := by
  refine (Ideal.multiReduction_maximumf_single s 0xFF800000#32 reduces_S128x2048_S128 hφ hacc (ix1 r)).trans ?_
  exact congrArg (fun f => (Finset.univ : Finset (Fin 2048)).fold max negInf f) (funext fun k => congrArg s (lift_row r k))

/-- The sum along row `r`. -/
theorem rowSum_apply (e : FVec Ideal S128x2048 .f32) (hφ : FKind.Formats .f32)
    (hacc : (0x00000000#32 : BitVec 32) = FKind.add.neutral .f32 hφ) (r : Fin 128) :
    multiReduction .add [1] S128 e 0x00000000#32 reduces_S128x2048_S128 hφ hacc (ix1 r) = ∑ l : Fin 2048, e (ix2 r l) := by
  refine (Ideal.multiReduction_add_single e 0x00000000#32 reduces_S128x2048_S128 hφ hacc (ix1 r)).trans ?_
  exact Finset.sum_congr rfl fun k _ => congrArg e (lift_row r k)

/-- A per-row value kept as a column and spread back over the row reads, at `(r, l)`, the value of row `r`. -/
theorem column_apply (v : FVec Ideal S128 .f32) (r : Fin 128) (l : Fin 2048) :
    broadcastTo S128x2048 (shapeCast S128x1 v shapeCasts_S128_S128x1) broadcasts_S128x1_S128x2048 (ix2 r l) = v (ix1 r) :=
  (Keepdims.broadcastTo_a1_ab_apply _ broadcasts_S128x1_S128x2048 r l).trans
    (Keepdims.shapeCast_a_a1_apply v shapeCasts_S128_S128x1 r 0)

/-! ## The softmax of the tile's rows -/

/-- The shifted exponentials of a score tile. -/
def shifted (s : FVec Ideal S128x2048 .f32) : FVec Ideal S128x2048 .f32 :=
  exp (subf s (broadcastTo S128x2048 (shapeCast S128x1
    (multiReduction .maximumf [1] S128 s 0xFF800000#32 reduces_S128x2048_S128 (.inl rfl) rfl) shapeCasts_S128_S128x1)
    broadcasts_S128x1_S128x2048))

theorem shifted_apply (s : FVec Ideal S128x2048 .f32) (r : Fin 128) (l : Fin 2048) :
    shifted s (ix2 r l) = Ideal.exp (s (ix2 r l) - (Finset.univ : Finset (Fin 2048)).fold max negInf (fun l' => s (ix2 r l'))) := by
  show Ideal.exp (s (ix2 r l) - broadcastTo S128x2048 (shapeCast S128x1
    (multiReduction .maximumf [1] S128 s 0xFF800000#32 reduces_S128x2048_S128 (.inl rfl) rfl) shapeCasts_S128_S128x1)
    broadcasts_S128x1_S128x2048 (ix2 r l)) = _
  exact congrArg (fun z => Ideal.exp (s (ix2 r l) - z))
    ((column_apply _ r l).trans (rowMax_apply s (.inl rfl) rfl r))

/-- The normalised tile: every row divided by its sum. -/
def normalise (s : FVec Ideal S128x2048 .f32) : FVec Ideal S128x2048 .f32 :=
  divf (shifted s) (broadcastTo S128x2048 (shapeCast S128x1
    (multiReduction .add [1] S128 (shifted s) 0x00000000#32 reduces_S128x2048_S128 (.inl rfl) rfl) shapeCasts_S128_S128x1)
    broadcasts_S128x1_S128x2048)

/-- Row `r` of the normalised tile is the softmax of row `r` of the scores. -/
theorem normalise_apply (s : FVec Ideal S128x2048 .f32) (r : Fin 128) (l : Fin 2048) :
    normalise s (ix2 r l) = colSoftmax (fun l' => s (ix2 r l')) l := by
  show Ideal.div (shifted s (ix2 r l)) (broadcastTo S128x2048 (shapeCast S128x1
    (multiReduction .add [1] S128 (shifted s) 0x00000000#32 reduces_S128x2048_S128 (.inl rfl) rfl) shapeCasts_S128_S128x1)
    broadcasts_S128x1_S128x2048 (ix2 r l)) = _
  have hden : broadcastTo S128x2048 (shapeCast S128x1
      (multiReduction .add [1] S128 (shifted s) 0x00000000#32 reduces_S128x2048_S128 (.inl rfl) rfl) shapeCasts_S128_S128x1)
      broadcasts_S128x1_S128x2048 (ix2 r l)
        = ∑ l' : Fin 2048, Ideal.exp (s (ix2 r l') - (Finset.univ : Finset (Fin 2048)).fold max negInf (fun l'' => s (ix2 r l''))) :=
    ((column_apply _ r l).trans (rowSum_apply (shifted s) (.inl rfl) rfl r)).trans
      (Finset.sum_congr rfl fun l' _ => shifted_apply s r l')
  rw [hden, shifted_apply]
  rfl

/-! ## The scores of a tile -/

/-- The tile's scores: every key row of the tile against every query row. -/
def scores (q : FVec Ideal S1x2048x1024 .f32) (k : FVec Ideal S1x128x1024 .f32) : FVec Ideal S128x2048 .f32 :=
  matmul dot_S128x1024_S2048x1024_S128x2048_1_1_0_0_n_n (some .fp32)
    (shapeCast S128x1024 k shapeCasts_S1x128x1024_S128x1024 : FVec Ideal S128x1024 .f32)
    (shapeCast S2048x1024 q shapeCasts_S1x2048x1024_S2048x1024 : FVec Ideal S2048x1024 .f32)
    (constant S128x2048 .f32 0x00000000#32)

theorem scores_apply (q : FVec Ideal S1x2048x1024 .f32) (k : FVec Ideal S1x128x1024 .f32) (r : Fin 128) (l : Fin 2048) :
    scores q k (ix2 r l) = ∑ e : Fin 1024, k (ix3 (0 : Fin 1) r e) * q (ix3 (0 : Fin 1) l e) := by
  refine (MatmulT.matmul_zero_apply dot_S128x1024_S2048x1024_S128x2048_1_1_0_0_n_n_wf (some .fp32)
    (shapeCast S128x1024 k shapeCasts_S1x128x1024_S128x1024 : FVec Ideal S128x1024 .f32)
    (shapeCast S2048x1024 q shapeCasts_S1x2048x1024_S2048x1024 : FVec Ideal S2048x1024 .f32) r l).trans ?_
  exact Finset.sum_congr rfl fun e _ => by rw [shapeCast_1ab_ab_apply, shapeCast_1ab_ab_apply]

/-! ## The two stores -/

/-- The reset stores zeros. -/
theorem reset_apply (u : Fin 1) (l : Fin 2048) (d : Fin 1024) : k1_pay1 (F := Ideal) (ix3 u l d) = 0 := by
  have h : k1_pay1 (F := Ideal) = shapeCast S1x2048x1024 (broadcast S2048x1024 (Scalar.ofBits (F := Ideal) .f32 0x00000000#32))
      shapeCasts_S2048x1024_S1x2048x1024 := rfl
  rw [h, shapeCast_ab_1ab_apply, broadcast_apply]
  exact Ideal.ofBits_zero_f32

/-- The accumulating store: at `(l, d)` the block so far plus the tile's share, the sum over the tile's 128 key rows
    of the softmax weight of (key row, query l) times the value row's entry d. -/
theorem step_apply (q : FVec Ideal S1x2048x1024 .f32) (k : FVec Ideal S1x128x1024 .f32) (v : FVec Ideal S1x128x1024 .bf16)
    (acc : FVec Ideal S1x2048x1024 .f32) (u : Fin 1) (l : Fin 2048) (d : Fin 1024) :
    k1_pay2 q k v acc (ix3 u l d)
      = acc (ix3 (0 : Fin 1) l d)
        + ∑ r : Fin 128, colSoftmax (fun l' => ∑ e : Fin 1024, k (ix3 (0 : Fin 1) r e) * q (ix3 (0 : Fin 1) l' e)) l
            * v (ix3 (0 : Fin 1) r d) := by
  have h : k1_pay2 q k v acc = shapeCast S1x2048x1024 (addf (shapeCast S2048x1024 acc shapeCasts_S1x2048x1024_S2048x1024 : FVec Ideal S2048x1024 .f32)
      (matmul dot_S128x2048_S128x1024_S2048x1024_0_0_1_1_n_n none (truncf .bf16 (normalise (scores q k)) bitsLt_bf16_f32 : FVec Ideal S128x2048 .bf16)
        (shapeCast S128x1024 v shapeCasts_S1x128x1024_S128x1024 : FVec Ideal S128x1024 .bf16) (constant S2048x1024 .f32 0x00000000#32)))
      shapeCasts_S2048x1024_S1x2048x1024 := rfl
  rw [h, shapeCast_ab_1ab_apply, addf_apply, shapeCast_1ab_ab_apply]
  refine congrArg (acc (ix3 (0 : Fin 1) l d) + ·) ?_
  refine (MatmulTN.matmul_zero_apply dot_S128x2048_S128x1024_S2048x1024_0_0_1_1_n_n_wf none
    (truncf .bf16 (normalise (scores q k)) bitsLt_bf16_f32 : FVec Ideal S128x2048 .bf16)
    (shapeCast S128x1024 v shapeCasts_S1x128x1024_S128x1024 : FVec Ideal S128x1024 .bf16) l d).trans ?_
  refine Finset.sum_congr rfl fun r _ => ?_
  rw [truncf_apply, normalise_apply, shapeCast_1ab_ab_apply]
  exact congrArg (fun a => colSoftmax a l * v (ix3 (0 : Fin 1) r d)) (funext fun l' => scores_apply q k r l')

end Cert.KernelIdeal.Tile

end
-- ==== Proof.AttentionRegion.lean ====
/-
  What the attention kernel leaves in its output array.

  The kernel runs over 32 batches times 16 key tiles, the key tile moving fastest: grid point 16 b + j works on
  batch b and key rows 128 j … 128 j + 127. The output block of a batch — all 2048 query rows — stays in place
  while the batch's 16 tiles go by: the first tile of a batch resets it to zero and adds its share, every later tile adds
  its share to what the tile before left, and only after the batch's last tile is the block written back, to rows
  (b, ·, ·) of the result. So after tile j of batch b the block holds, at (l, d), the sum over the tiles 0 … j of
      Σ_{r < 128} P[b, l, 128 i + r] · V[b, 128 i + r, d],
  where P is the softmax over the query axis of the scores K[b, m, ·] · Q[b, l, ·]; by induction on j, never by
  enumerating the grid. The 32 write-backs are disjoint and cover the result array.
-/
import proofs.«131218_j63677185131093_2_alg».proof.Proof.Gen.KernelIdeal.Frame
import proofs.«131218_j63677185131093_2_alg».proof.Proof.AttentionTile
import Idealize.ShloMosaic.Lib.Pipeline.Value
import Idealize.ShloMosaic.Lib.Tactic

set_option maxRecDepth 16384

noncomputable section

open scoped BigOperators

namespace Cert.KernelIdeal.AttentionRegion

open Cert.KernelIdeal Cert.KernelIdeal.Gen
open Idealize.ShloMosaic Idealize.ShloMosaic.TcCoe Idealize.SL.Sem Idealize.ShloMosaic.Tactic
open Idealize.ShloMosaic.ValueIdx ColumnSoftmaxAttention
open Idealize.ShloMosaic.Pipeline (Dat)

theorem hz : (![0, 0, 0] : Fin 3 → Nat) = fun _ => 0 := funext fun a => by fin_cases a <;> rfl

/-! ## What one grid point leaves in the output block, as the body's arithmetic -/

section Pieces

variable {F : FTy → Type} [FloatOps F]

/-- A later tile of a batch: the block so far, `xo`, goes through the accumulating store. -/
theorem later_tile (c : Dev nD) (i : grid1.Coords) (a2 : Memref sig .tc .vmem S1x2048x1024 .f32) (h2 : a2.IsWhole)
    (a3 : Memref sig .tc .vmem S1x128x1024 .f32) (h3 : a3.IsWhole) (a4 : Memref sig .tc .vmem S1x128x1024 .bf16)
    (h4 : a4.IsWhole) (a5 : Memref sig .tc .vmem S1x2048x1024 .f32) (h5 : a5.IsWhole) (hc : ¬cond1_0 i)
    (x0 : Vec F S1x2048x1024 .f32) (x1 : Vec F S1x128x1024 .f32) (x2 : Vec F S1x128x1024 .bf16)
    (xo : Vec F S1x2048x1024 .f32) :
    out1_B_3 c i a2 h2 a3 h3 a4 h4 a5 h5 hc x0 x1 x2 xo = k1_pay2 x0 x1 x2 xo := by
  unfold out1_B_3
  rw [View.read_writes_eq_canon _ _ _ (cover1_B_3 c i a2 h2 a3 h3 a4 h4 a5 h5 hc x0 x1 x2 xo)]
  unfold kernelRun1_B
  dsimp only
  rw [View.canon_unit_zero hz]
  simp only [View.readAt_eq_ld, h2.read_unread, h3.read_unread, h4.read_unread, h5.read_unread,
    View.ld_unit_zero (S := S1x2048x1024) hz, View.ld_unit_zero (S := S1x128x1024) hz]

/-- The first tile of a batch: the block is reset to the zero store's value, which then goes through the accumulating
    store. -/
theorem first_tile (c : Dev nD) (i : grid1.Coords) (a2 : Memref sig .tc .vmem S1x2048x1024 .f32) (h2 : a2.IsWhole)
    (a3 : Memref sig .tc .vmem S1x128x1024 .f32) (h3 : a3.IsWhole) (a4 : Memref sig .tc .vmem S1x128x1024 .bf16)
    (h4 : a4.IsWhole) (a5 : Memref sig .tc .vmem S1x2048x1024 .f32) (h5 : a5.IsWhole) (hc : cond1_0 i)
    (x0 : Vec F S1x2048x1024 .f32) (x1 : Vec F S1x128x1024 .f32) (x2 : Vec F S1x128x1024 .bf16) :
    out1_A_3 c i a2 h2 a3 h3 a4 h4 a5 h5 hc x0 x1 x2 = k1_pay2 x0 x1 x2 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x2048x1024) hz, View.readCov_unit_zero (S := S1x2048x1024) _ hz]
  simp only [View.readAt_eq_ld, h2.read_unread, h3.read_unread, h4.read_unread,
    View.ld_unit_zero (S := S1x2048x1024) hz, View.ld_unit_zero (S := S1x128x1024) hz]

end Pieces

/-! ## The grid points and the blocks they read -/

theorem N1 : cfg1.N = 512 := N_1

/-- Grid point `16 b + j`: batch `b`, key tile `j`. -/
def pt (b : Fin 32) (j : Fin 16) : Fin cfg1.N :=
  ⟨b.val * 16 + j.val, by rw [N1]; have := b.isLt; have := j.isLt; omega⟩

@[simp] theorem pt_val (b : Fin 32) (j : Fin 16) : (pt b j).val = b.val * 16 + j.val := rfl

/-- The printed index maps, decided once over the grid: the queries' and the output's block is (batch, 0, 0), the keys'
    and the values' block is (batch, key tile, 0). -/
theorem idx_facts : ∀ t : Fin cfg1.N,
    win1_0.index t (0 : Fin 3) = t.val / 16 ∧ win1_0.index t (1 : Fin 3) = 0 ∧ win1_0.index t (2 : Fin 3) = 0
    ∧ win1_1.index t (0 : Fin 3) = t.val / 16 ∧ win1_1.index t (1 : Fin 3) = t.val % 16 ∧ win1_1.index t (2 : Fin 3) = 0
    ∧ win1_2.index t (0 : Fin 3) = t.val / 16 ∧ win1_2.index t (1 : Fin 3) = t.val % 16 ∧ win1_2.index t (2 : Fin 3) = 0
    ∧ win1_3.index t (0 : Fin 3) = t.val / 16 ∧ win1_3.index t (1 : Fin 3) = 0 ∧ win1_3.index t (2 : Fin 3) = 0 :=
  (by decide +kernel : ∀ t : Fin grid1.N, _)

section Value

variable (V : (c : Dev nD) → (b : Ref sig .tc) → Buf (Elt Ideal) ((c : Thread nD τ).loc b))

/-- The last key tile of a batch. -/
def lastTile : Fin 16 := ⟨15, by decide⟩

@[simp] theorem lastTile_val : lastTile.val = 15 := rfl

/-- The query, key and value arrays the kernel is entered with, read by coordinates. -/
def qAt (c : Dev nD) (b : Fin 32) (l : Fin 2048) (e : Fin 1024) : EReal := V c main_v3 (ix3 b l e)
def kAt (c : Dev nD) (b : Fin 32) (mm : Fin 2048) (e : Fin 1024) : EReal := V c main_v4 (ix3 b mm e)
def vAt (c : Dev nD) (b : Fin 32) (mm : Fin 2048) (d : Fin 1024) : EReal := V c main_v5 (ix3 b mm d)

/-- The query block of batch `b` is rows `(b, ·, ·)` of the query array. -/
theorem read_q (c : Dev nD) (b : Fin 32) (j : Fin 16) (l : Fin 2048) (e : Fin 1024) :
    (iblk1 V c 0 (pt b j) : FVec Ideal S1x2048x1024 .f32) (ix3 (0 : Fin 1) l e) = qAt V c b l e := by
  obtain ⟨e0, e1, e2, -⟩ := idx_facts (pt b j)
  show V c main_v3 (((cfg1.win 0).blk (pt b j)).view.emb (ix3 (0 : Fin 1) l e)) = V c main_v3 (ix3 b l e)
  refine congrArg (V c main_v3) (funext fun a => Fin.ext ?_)
  have hb := b.isLt; have hj := j.isLt
  match a with
  | ⟨0, _⟩ => show win1_0.index (pt b j) (0 : Fin 3) * 1 + 1 * 0 = b.val; rw [e0, pt_val]; omega
  | ⟨1, _⟩ => show win1_0.index (pt b j) (1 : Fin 3) * 2048 + 1 * l.val = l.val; rw [e1]; omega
  | ⟨2, _⟩ => show win1_0.index (pt b j) (2 : Fin 3) * 1024 + 1 * e.val = e.val; rw [e2]; omega

/-- The key tile `j` of batch `b` is rows `(b, 128 j + ·, ·)` of the key array. -/
theorem read_k (c : Dev nD) (b : Fin 32) (j : Fin 16) (r : Fin 128) (e : Fin 1024) :
    (iblk1 V c 1 (pt b j) : FVec Ideal S1x128x1024 .f32) (ix3 (0 : Fin 1) r e) = kAt V c b (keyRow j r) e := by
  obtain ⟨-, -, -, e0, e1, e2, -⟩ := idx_facts (pt b j)
  show V c main_v4 (((cfg1.win 1).blk (pt b j)).view.emb (ix3 (0 : Fin 1) r e)) = V c main_v4 (ix3 b (keyRow j r) e)
  refine congrArg (V c main_v4) (funext fun a => Fin.ext ?_)
  have hb := b.isLt; have hj := j.isLt
  match a with
  | ⟨0, _⟩ => show win1_1.index (pt b j) (0 : Fin 3) * 1 + 1 * 0 = b.val; rw [e0, pt_val]; omega
  | ⟨1, _⟩ => show win1_1.index (pt b j) (1 : Fin 3) * 128 + 1 * r.val = j.val * 128 + r.val; rw [e1, pt_val]; omega
  | ⟨2, _⟩ => show win1_1.index (pt b j) (2 : Fin 3) * 1024 + 1 * e.val = e.val; rw [e2]; omega

/-- The value tile `j` of batch `b` is rows `(b, 128 j + ·, ·)` of the value array. -/
theorem read_v (c : Dev nD) (b : Fin 32) (j : Fin 16) (r : Fin 128) (d : Fin 1024) :
    (iblk1 V c 2 (pt b j) : FVec Ideal S1x128x1024 .bf16) (ix3 (0 : Fin 1) r d) = vAt V c b (keyRow j r) d := by
  obtain ⟨-, -, -, -, -, -, e0, e1, e2, -⟩ := idx_facts (pt b j)
  show V c main_v5 (((cfg1.win 2).blk (pt b j)).view.emb (ix3 (0 : Fin 1) r d)) = V c main_v5 (ix3 b (keyRow j r) d)
  refine congrArg (V c main_v5) (funext fun a => Fin.ext ?_)
  have hb := b.isLt; have hj := j.isLt
  match a with
  | ⟨0, _⟩ => show win1_2.index (pt b j) (0 : Fin 3) * 1 + 1 * 0 = b.val; rw [e0, pt_val]; omega
  | ⟨1, _⟩ => show win1_2.index (pt b j) (1 : Fin 3) * 128 + 1 * r.val = j.val * 128 + r.val; rw [e1, pt_val]; omega
  | ⟨2, _⟩ => show win1_2.index (pt b j) (2 : Fin 3) * 1024 + 1 * d.val = d.val; rw [e2]; omega

/-! ## One tile's share, and the running sum -/

/-- Key tile `j`'s share of the output at `(b, l, d)`: over the tile's 128 key rows, the softmax weight of the score
    column of that key row at query `l`, times the value row's entry `d`. -/
def share (c : Dev nD) (b : Fin 32) (l : Fin 2048) (d : Fin 1024) (j : Fin 16) : EReal :=
  ∑ r : Fin 128, Tile.colSoftmax (fun l' => ∑ e : Fin 1024, kAt V c b (keyRow j r) e * qAt V c b l' e) l
    * vAt V c b (keyRow j r) d

/-- The same with the tile counted by a natural number (nothing beyond the 16th tile). -/
def shareN (c : Dev nD) (b : Fin 32) (l : Fin 2048) (d : Fin 1024) (n : ℕ) : EReal :=
  if h : n < 16 then share V c b l d ⟨n, h⟩ else 0

/-- The accumulating store at grid point (b, j) adds tile `j`'s share to the block it finds. -/
theorem step (c : Dev nD) (b : Fin 32) (j : Fin 16) (acc : FVec Ideal S1x2048x1024 .f32) (l : Fin 2048) (d : Fin 1024) :
    k1_pay2 (iblk1 V c 0 (pt b j)) (iblk1 V c 1 (pt b j)) (iblk1 V c 2 (pt b j)) acc (ix3 (0 : Fin 1) l d)
      = acc (ix3 (0 : Fin 1) l d) + share V c b l d j := by
  refine (Tile.step_apply (iblk1 V c 0 (pt b j)) (iblk1 V c 1 (pt b j)) (iblk1 V c 2 (pt b j)) acc 0 l d).trans ?_
  refine congrArg (acc (ix3 (0 : Fin 1) l d) + ·) ?_
  unfold share
  refine Finset.sum_congr rfl fun r _ => ?_
  refine congr (congrArg HMul.hMul (congrArg (fun a => Tile.colSoftmax a l)
    (funext fun l' => Finset.sum_congr rfl fun e _ => ?_))) (read_v V c b j r d)
  exact congr (congrArg HMul.hMul (read_k V c b j r e)) (read_q V c b j l' e)

/-- The block after one grid point does not depend on how the point's number is written. -/
theorem outsAt1_congr (c : Dev nD) {n n' : ℕ} (e : n = n') (h : n < cfg1.N) (h' : n' < cfg1.N) :
    outsAt1 V c n h = outsAt1 V c n' h' := by subst e; rfl

/-- THE RUNNING SUM. After tile `n` of batch `b` the output block holds, at `(l, d)`, the shares of tiles `0 … n`. -/
theorem acc_eq (c : Dev nD) (b : Fin 32) (l : Fin 2048) (d : Fin 1024) : ∀ (n : ℕ) (hn : n < 16),
    outsAt1 V c (pt b ⟨n, hn⟩).val (pt b ⟨n, hn⟩).isLt (ix3 (0 : Fin 1) l d) = ∑ i ∈ Finset.range (n + 1), shareN V c b l d i
  | 0, hn => by
    have h0 : (pt b ⟨0, hn⟩).val % 16 = 0 := by show (b.val * 16 + 0) % 16 = 0; omega
    refine (congrFun ((outsAt1_A V c (pt b ⟨0, hn⟩) h0).trans
      (first_tile (F := Ideal) c (grid1.coords (pt b ⟨0, hn⟩)) (ms1_0 (pt b ⟨0, hn⟩)) (hs1_0 (pt b ⟨0, hn⟩))
        (ms1_1 (pt b ⟨0, hn⟩)) (hs1_1 (pt b ⟨0, hn⟩)) (ms1_2 (pt b ⟨0, hn⟩)) (hs1_2 (pt b ⟨0, hn⟩))
        (ms1_3 (pt b ⟨0, hn⟩)) (hs1_3 (pt b ⟨0, hn⟩)) ((hcond1_0 (pt b ⟨0, hn⟩)).mpr h0)
        (iblk1 V c 0 (pt b ⟨0, hn⟩)) (iblk1 V c 1 (pt b ⟨0, hn⟩)) (iblk1 V c 2 (pt b ⟨0, hn⟩)))) _).trans ?_
    refine (step V c b ⟨0, hn⟩ (k1_pay1 (F := Ideal)) l d).trans ?_
    rw [Tile.reset_apply, zero_add, Finset.sum_range_one]
    simp only [shareN, dif_pos hn]
  | n + 1, hn => by
    have hB : ¬(pt b ⟨n + 1, hn⟩).val % 16 = 0 := by show ¬(b.val * 16 + (n + 1)) % 16 = 0; omega
    have hn' : n < 16 := Nat.lt_of_succ_lt hn
    refine (congrFun ((outsAt1_B V c (pt b ⟨n + 1, hn⟩) hB).trans
      (later_tile (F := Ideal) c (grid1.coords (pt b ⟨n + 1, hn⟩)) (ms1_0 (pt b ⟨n + 1, hn⟩)) (hs1_0 (pt b ⟨n + 1, hn⟩))
        (ms1_1 (pt b ⟨n + 1, hn⟩)) (hs1_1 (pt b ⟨n + 1, hn⟩)) (ms1_2 (pt b ⟨n + 1, hn⟩)) (hs1_2 (pt b ⟨n + 1, hn⟩))
        (ms1_3 (pt b ⟨n + 1, hn⟩)) (hs1_3 (pt b ⟨n + 1, hn⟩)) (fun h => hB ((hcond1_0 (pt b ⟨n + 1, hn⟩)).mp h))
        (iblk1 V c 0 (pt b ⟨n + 1, hn⟩)) (iblk1 V c 1 (pt b ⟨n + 1, hn⟩)) (iblk1 V c 2 (pt b ⟨n + 1, hn⟩))
        (outsAt1 V c ((pt b ⟨n + 1, hn⟩).val - 1) (Nat.lt_of_le_of_lt (Nat.sub_le _ _) (pt b ⟨n + 1, hn⟩).isLt)))) _).trans ?_
    refine (step V c b ⟨n + 1, hn⟩ _ l d).trans ?_
    rw [outsAt1_congr V c (show (pt b ⟨n + 1, hn⟩).val - 1 = (pt b ⟨n, hn'⟩).val by show b.val * 16 + (n + 1) - 1 = b.val * 16 + n; omega)
        _ (pt b ⟨n, hn'⟩).isLt,
      acc_eq c b l d n hn', Finset.sum_range_succ (shareN V c b l d) (n + 1)]
    simp only [shareN, dif_pos hn]

/-! ## The write-backs and the result array -/

/-- The output at `(b, l, d)`: the shares of the batch's 16 key tiles. -/
def resultAt (c : Dev nD) (b : Fin 32) (l : Fin 2048) (d : Fin 1024) : EReal := ∑ j : Fin 16, share V c b l d j

/-- The result array. -/
def result (c : Dev nD) : S32x2048x1024.Idx → EReal := fun i => resultAt V c (i 0) (i 1) (i 2)

theorem result_apply (c : Dev nD) (b : Fin 32) (l : Fin 2048) (d : Fin 1024) :
    result V c (ix3 b l d) = resultAt V c b l d := rfl

/-- Batch `b`'s block of the result array, entry `(l, d)` of the block, is entry `(b, l, d)` of the array. -/
theorem emb_last (b : Fin 32) (l : Fin 2048) (d : Fin 1024) :
    ((cfg1.win 3).blk (pt b lastTile)).view.emb (ix3 (0 : Fin 1) l d) = ix3 b l d := by
  obtain ⟨-, -, -, -, -, -, -, -, -, e0, e1, e2⟩ := idx_facts (pt b lastTile)
  have hb := b.isLt
  funext a
  apply Fin.ext
  match a with
  | ⟨0, _⟩ => show win1_3.index (pt b lastTile) (0 : Fin 3) * 1 + 1 * 0 = b.val; rw [e0, pt_val, lastTile_val]; omega
  | ⟨1, _⟩ => show win1_3.index (pt b lastTile) (1 : Fin 3) * 2048 + 1 * l.val = l.val; rw [e1]; omega
  | ⟨2, _⟩ => show win1_3.index (pt b lastTile) (2 : Fin 3) * 1024 + 1 * d.val = d.val; rw [e2]; omega

/-- At the last tile of a batch the block, entry by entry, is the result array's entry it is written to. -/
theorem flushed_at (c : Dev nD) (t : Fin cfg1.N) (h15 : t.val % 16 = 15) (y : S1x2048x1024.Idx) :
    outsAt1 V c t.val t.isLt y = result V c (((cfg1.win 3).blk t).view.emb y) := by
  have hN : t.val < 512 := lt_of_lt_of_eq t.isLt N1
  obtain ⟨u, l, d, rfl⟩ : ∃ (u : Fin 1) (l : Fin 2048) (d : Fin 1024), y = ix3 u l d := ⟨y 0, y 1, y 2, eq_ix3 y⟩
  obtain rfl : u = 0 := Subsingleton.elim _ _
  have hb : t.val / 16 < 32 := by omega
  have ht : t = pt ⟨t.val / 16, hb⟩ lastTile := Fin.ext (by show t.val = t.val / 16 * 16 + 15; omega)
  generalize (⟨t.val / 16, hb⟩ : Fin 32) = b at ht
  subst ht
  refine (acc_eq V c b l d 15 (by decide)).trans ?_
  rw [emb_last, result_apply]
  unfold resultAt
  rw [Finset.sum_range]
  exact Finset.sum_congr rfl fun j _ => by simp only [shareN, dif_pos j.isLt]

/-- What the last tile of a batch writes back is its block of the result array. -/
theorem flushed_eq (c : Dev nD) (t : Fin cfg1.N) (hf : (cfg1.win 3).flush t = true) :
    (dat1 V c).flushed 3 t = ((cfg1.win 3).blk t).view.read (Elt Ideal) (result V c) := by
  have h15 : t.val % 16 = 15 := (flush1_3 t).mp hf
  show (cfg1.win 3).cut (grid1.coords t) ((dat1 V c).after 3 t) = _
  rw [after1_3]
  exact funext fun y => flushed_at V c t h15 y

/-- An index of the result array is in point `t`'s block iff each coordinate is in the block's range on its axis. -/
theorem mem_blk (t : Fin cfg1.N) (i : S32x2048x1024.Idx) :
    i ∈ ((cfg1.win 3).blk t).view.set ↔ ∀ a : Fin 3, win1_3.index t a * S1x2048x1024.size a ≤ (i a).val
      ∧ (i a).val < win1_3.index t a * S1x2048x1024.size a + S1x2048x1024.size a := by
  show i ∈ ((View.whole main_v6).slice (win1_3.rect t)).set ↔ _
  rw [View.set_slice_whole, Rect.mem_set_unit]
  exact Iff.rfl

/-- Every entry of the result array is written back by the last tile of its batch. -/
theorem cover (i : S32x2048x1024.Idx) :
    ∃ t : Fin cfg1.N, (cfg1.win 3).flush t = true ∧ i ∈ ((cfg1.win 3).blk t).view.set := by
  have h0 : (i 0).val < 32 := (i 0).isLt
  have h1 : (i 1).val < 2048 := (i 1).isLt
  have h2 : (i 2).val < 1024 := (i 2).isLt
  obtain ⟨b, hbv⟩ : ∃ b : Fin 32, b.val = (i 0).val := ⟨⟨(i 0).val, h0⟩, rfl⟩
  refine ⟨pt b lastTile, (flush1_3 _).mpr (by rw [pt_val, lastTile_val]; omega), ?_⟩
  rw [mem_blk]
  obtain ⟨-, -, -, -, -, -, -, -, -, e0, e1, e2⟩ := idx_facts (pt b lastTile)
  have hb := b.isLt
  intro a
  match a with
  | ⟨0, _⟩ =>
    show win1_3.index (pt b lastTile) (0 : Fin 3) * 1 ≤ (i 0).val
      ∧ (i 0).val < win1_3.index (pt b lastTile) (0 : Fin 3) * 1 + 1
    rw [e0, pt_val, lastTile_val]; omega
  | ⟨1, _⟩ =>
    show win1_3.index (pt b lastTile) (1 : Fin 3) * 2048 ≤ (i 1).val
      ∧ (i 1).val < win1_3.index (pt b lastTile) (1 : Fin 3) * 2048 + 2048
    rw [e1]; omega
  | ⟨2, _⟩ =>
    show win1_3.index (pt b lastTile) (2 : Fin 3) * 1024 ≤ (i 2).val
      ∧ (i 2).val < win1_3.index (pt b lastTile) (2 : Fin 3) * 1024 + 1024
    rw [e2]; omega

/-- THE RESULT ARRAY after the kernel: at `(b, l, d)` the shares of batch `b`'s 16 key tiles. -/
theorem final (c : Dev nD) : (dat1 V c).arrAt 3 cfg1.N = result V c :=
  (dat1 V c).arrAt_eq_of_cover 3 (result V c) (flushed_eq V c) cover

end Value

end Cert.KernelIdeal.AttentionRegion

end
-- ==== Proof.ReferenceValue.lean ====
/-
  The reference program's result, read at one index (b, l, d), is attention with the softmax over the QUERY axis.

  The reference is a chain of array operations; each is read here at an index written by its coordinates, one
  small lemma per stage, innermost first:
    the three projections       (x · w)[b, l, e]   = Σ_d x[b, l, d] · w[d, e]
    the scores                  A[b, l, m]         = Σ_d Q[b, l, d] · K[b, m, d]
    the column maximum          c[b, m]            = the fold of max from -∞ over the 2048 query rows l of A[b, l, m]
    one more max(-∞, ·)         max(-∞, c) = c on the extended reals, -∞ being the least element
    its broadcast over l        [b, m] → [b, 1, m] → [b, l, m]: the value at (b, l, m) is c[b, m]
    the shifted exponential     E[b, l, m]         = exp (A[b, l, m] - c[b, m])
    the column sum              S[b, m]            = 0 + Σ_l E[b, l, m] = Σ_l E[b, l, m]
    its broadcast over l, the quotient P[b, l, m] = E[b, l, m] / S[b, m]
    the weighted sum            out[b, l, d]       = Σ_m P[b, l, m] · V[b, m, d].
  Every step is a reading of one operation at an index together with the identification of the operand indices
  (a function of the result index and, for a contraction or a reduction, of the summed coordinate) with indices
  given by coordinates. No entry needs to be finite: the only facts about the extended reals used are
  max ⊥ c = c and 0 + s = s.
-/
import proofs.«131218_j63677185131093_2_alg».proof.Proof.Gen.ReferenceIdeal.Read
import proofs.«131218_j63677185131093_2_alg».proof.Proof.Attention
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open ColumnSoftmaxAttention

/-- The activations read by coordinates. -/
abbrev act (x0 : (⟨S32x2048x1024, .f32⟩ : BufTy).Contents (Elt Ideal)) : Fin 32 → Fin 2048 → Fin 1024 → EReal :=
  fun b l d => x0 (ix3 b l d)

/-- A weight matrix read by coordinates. -/
abbrev wt (w : (⟨S1024x1024, .f32⟩ : BufTy).Contents (Elt Ideal)) : Fin 1024 → Fin 1024 → EReal :=
  fun d e => w (ix2 d e)

theorem lidx_v0 (b : Fin 32) (l : Fin 2048) (e k : Fin 1024) : lidx_main_v0 (ix3 b l e) k = ix3 b l k :=
  funext fun a => Fin.ext (by match a with | ⟨0, _⟩ => rfl | ⟨1, _⟩ => rfl | ⟨2, _⟩ => rfl)
theorem ridx_v0 (b : Fin 32) (l : Fin 2048) (e k : Fin 1024) : ridx_main_v0 (ix3 b l e) k = ix2 k e :=
  funext fun a => Fin.ext (by match a with | ⟨0, _⟩ => rfl | ⟨1, _⟩ => rfl)

theorem v0_at (x0 : (⟨S32x2048x1024, .f32⟩ : BufTy).Contents (Elt Ideal)) (x1 : (⟨S1024x1024, .f32⟩ : BufTy).Contents (Elt Ideal))
    (b : Fin 32) (l : Fin 2048) (e : Fin 1024) :
    val_main_v0 (F := Ideal) x0 x1 (ix3 b l e) = proj (act x0) (wt x1) b l e := by
  rw [val_main_v0_apply]
  unfold proj
  refine Finset.sum_congr rfl fun k _ => ?_
  rw [lidx_v0, ridx_v0]

theorem lidx_v1 (b : Fin 32) (l : Fin 2048) (e k : Fin 1024) : lidx_main_v1 (ix3 b l e) k = ix3 b l k :=
  funext fun a => Fin.ext (by match a with | ⟨0, _⟩ => rfl | ⟨1, _⟩ => rfl | ⟨2, _⟩ => rfl)
theorem ridx_v1 (b : Fin 32) (l : Fin 2048) (e k : Fin 1024) : ridx_main_v1 (ix3 b l e) k = ix2 k e :=
  funext fun a => Fin.ext (by match a with | ⟨0, _⟩ => rfl | ⟨1, _⟩ => rfl)

theorem v1_at (x0 : (⟨S32x2048x1024, .f32⟩ : BufTy).Contents (Elt Ideal)) (x2 : (⟨S1024x1024, .f32⟩ : BufTy).Contents (Elt Ideal))
    (b : Fin 32) (l : Fin 2048) (e : Fin 1024) :
    val_main_v1 (F := Ideal) x0 x2 (ix3 b l e) = proj (act x0) (wt x2) b l e := by
  rw [val_main_v1_apply]
  unfold proj
  refine Finset.sum_congr rfl fun k _ => ?_
  rw [lidx_v1, ridx_v1]

theorem lidx_v2 (b : Fin 32) (l : Fin 2048) (e k : Fin 1024) : lidx_main_v2 (ix3 b l e) k = ix3 b l k :=
  funext fun a => Fin.ext (by match a with | ⟨0, _⟩ => rfl | ⟨1, _⟩ => rfl | ⟨2, _⟩ => rfl)
theorem ridx_v2 (b : Fin 32) (l : Fin 2048) (e k : Fin 1024) : ridx_main_v2 (ix3 b l e) k = ix2 k e :=
  funext fun a => Fin.ext (by match a with | ⟨0, _⟩ => rfl | ⟨1, _⟩ => rfl)

theorem v2_at (x0 : (⟨S32x2048x1024, .f32⟩ : BufTy).Contents (Elt Ideal)) (x3 : (⟨S1024x1024, .f32⟩ : BufTy).Contents (Elt Ideal))
    (b : Fin 32) (l : Fin 2048) (e : Fin 1024) :
    val_main_v2 (F := Ideal) x0 x3 (ix3 b l e) = proj (act x0) (wt x3) b l e := by
  rw [val_main_v2_apply]
  unfold proj
  refine Finset.sum_congr rfl fun k _ => ?_
  rw [lidx_v2, ridx_v2]

theorem lidx_v3 (b : Fin 32) (l m : Fin 2048) (k : Fin 1024) : lidx_main_v3 (ix3 b l m) k = ix3 b l k :=
  funext fun a => Fin.ext (by match a with | ⟨0, _⟩ => rfl | ⟨1, _⟩ => rfl | ⟨2, _⟩ => rfl)
theorem ridx_v3 (b : Fin 32) (l m : Fin 2048) (k : Fin 1024) : ridx_main_v3 (ix3 b l m) k = ix3 b m k :=
  funext fun a => Fin.ext (by match a with | ⟨0, _⟩ => rfl | ⟨1, _⟩ => rfl | ⟨2, _⟩ => rfl)

/-- The scores of the projected queries and keys, as the specification names them. -/
abbrev scores (x0 : (⟨S32x2048x1024, .f32⟩ : BufTy).Contents (Elt Ideal)) (x1 x2 : (⟨S1024x1024, .f32⟩ : BufTy).Contents (Elt Ideal)) :
    Fin 32 → Fin 2048 → Fin 2048 → EReal :=
  score (proj (act x0) (wt x1)) (proj (act x0) (wt x2))

theorem v3_at (x0 : (⟨S32x2048x1024, .f32⟩ : BufTy).Contents (Elt Ideal)) (x1 x2 : (⟨S1024x1024, .f32⟩ : BufTy).Contents (Elt Ideal))
    (b : Fin 32) (l m : Fin 2048) :
    val_main_v3 (F := Ideal) x0 x1 x2 (ix3 b l m) = scores x0 x1 x2 b l m := by
  rw [val_main_v3_apply]
  unfold scores score
  refine Finset.sum_congr rfl fun k _ => ?_
  rw [lidx_v3, ridx_v3, v0_at, v1_at]

theorem negInf_eq_bot : (Ideal.ofBits .f32 0xFF800000#32 : EReal) = ⊥ := by simp [Ideal.ofBits, Ideal.ieee]

theorem lift_v4 (h : S32x2048x2048.Reduces [1] S32x2048) (b : Fin 32) (m : Fin 2048) (k : Fin 2048) :
    h.lift (ix2 b m) k = ix3 b k m :=
  funext fun c => Fin.ext (by match c with | ⟨0, _⟩ => rfl | ⟨1, _⟩ => rfl | ⟨2, _⟩ => rfl)

/-- A max-reduce over the query axis from the literal -∞, read at (b, m): the fold of max over the 2048 query rows. -/
theorem reduce_max_at (y : (⟨S32x2048x2048, .f32⟩ : BufTy).Contents (Elt Ideal)) (b : Fin 32) (m : Fin 2048) :
    (Host.reduce (FloatOps.maximumf (F := Ideal) (φ := .f32)) y (val_main_cst (F := Ideal)) reducesTo_S32x2048x2048_S32x2048_d1 h_S_ (ix2 b m) : EReal)
      = (Finset.univ : Finset (Fin 2048)).fold max negInf (fun l => y (ix3 b l m)) := by
  have h : S32x2048x2048.Reduces [1] S32x2048 := by decide
  rw [Host.reduce_eq_fold_single (FloatOps.maximumf (F := Ideal) (φ := .f32)) y _ reducesTo_S32x2048x2048_S32x2048_d1 h h_S_ (ix2 b m)]
  refine Finset.fold_congr fun k _ => ?_
  exact congrArg y (lift_v4 h b m k)

theorem v4_at (x0 : (⟨S32x2048x1024, .f32⟩ : BufTy).Contents (Elt Ideal)) (x1 x2 : (⟨S1024x1024, .f32⟩ : BufTy).Contents (Elt Ideal))
    (b : Fin 32) (m : Fin 2048) :
    val_main_v4 (F := Ideal) x0 x1 x2 (ix2 b m) = colMax (scores x0 x1 x2) b m := by
  unfold val_main_v4
  refine (reduce_max_at _ b m).trans ?_
  unfold colMax
  refine Finset.fold_congr fun l _ => ?_
  exact v3_at x0 x1 x2 b l m

theorem v6_at (x0 : (⟨S32x2048x1024, .f32⟩ : BufTy).Contents (Elt Ideal)) (x1 x2 : (⟨S1024x1024, .f32⟩ : BufTy).Contents (Elt Ideal))
    (b : Fin 32) (m : Fin 2048) :
    val_main_v6 (F := Ideal) x0 x1 x2 (ix2 b m) = colMax (scores x0 x1 x2) b m := by
  rw [val_main_v6_apply, val_main_v5_apply, val_main_cst_0_apply, v4_at]
  show max (Ideal.ofBits .f32 0xFF800000#32 : EReal) _ = _
  rw [negInf_eq_bot]
  exact max_bot_left _

theorem idx_v7 (b : Fin 32) (z : Fin 1) (m : Fin 2048) : idx_main_v7 (ix3 b z m) = ix2 b m :=
  funext fun a => Fin.ext (by match a with | ⟨0, _⟩ => rfl | ⟨1, _⟩ => rfl)
theorem idx_v8 (b : Fin 32) (l m : Fin 2048) : idx_main_v8 (ix3 b l m) = ix3 b (0 : Fin 1) m :=
  funext fun a => Fin.ext (by match a with | ⟨0, _⟩ => rfl | ⟨1, _⟩ => rfl | ⟨2, _⟩ => rfl)

theorem v8_at (x0 : (⟨S32x2048x1024, .f32⟩ : BufTy).Contents (Elt Ideal)) (x1 x2 : (⟨S1024x1024, .f32⟩ : BufTy).Contents (Elt Ideal))
    (b : Fin 32) (l m : Fin 2048) :
    val_main_v8 (F := Ideal) x0 x1 x2 (ix3 b l m) = colMax (scores x0 x1 x2) b m := by
  rw [val_main_v8_apply, idx_v8, val_main_v7_apply, idx_v7, v6_at]

theorem v10_at (x0 : (⟨S32x2048x1024, .f32⟩ : BufTy).Contents (Elt Ideal)) (x1 x2 : (⟨S1024x1024, .f32⟩ : BufTy).Contents (Elt Ideal))
    (b : Fin 32) (l m : Fin 2048) :
    val_main_v10 (F := Ideal) x0 x1 x2 (ix3 b l m) = expo (scores x0 x1 x2) b l m := by
  rw [val_main_v10_apply, val_main_v9_apply, v3_at, v8_at, Ideal.hostUnary_exp_def, Ideal.subf_def]
  rfl

theorem idx_v11 (b : Fin 32) (m k : Fin 2048) : idx_main_v11 (ix2 b m) k = ix3 b k m :=
  funext fun a => Fin.ext (by match a with | ⟨0, _⟩ => rfl | ⟨1, _⟩ => rfl | ⟨2, _⟩ => rfl)

theorem v11_at (x0 : (⟨S32x2048x1024, .f32⟩ : BufTy).Contents (Elt Ideal)) (x1 x2 : (⟨S1024x1024, .f32⟩ : BufTy).Contents (Elt Ideal))
    (b : Fin 32) (m : Fin 2048) :
    val_main_v11 (F := Ideal) x0 x1 x2 (ix2 b m) = colSum (scores x0 x1 x2) b m := by
  rw [val_main_v11_apply, val_main_cst_1_apply, Ideal.ofBits_def, Ideal.ofBits_zero_f32, zero_add]
  unfold colSum
  refine Finset.sum_congr rfl fun k _ => ?_
  rw [idx_v11, v10_at]

theorem idx_v12 (b : Fin 32) (z : Fin 1) (m : Fin 2048) : idx_main_v12 (ix3 b z m) = ix2 b m :=
  funext fun a => Fin.ext (by match a with | ⟨0, _⟩ => rfl | ⟨1, _⟩ => rfl)
theorem idx_v13 (b : Fin 32) (l m : Fin 2048) : idx_main_v13 (ix3 b l m) = ix3 b (0 : Fin 1) m :=
  funext fun a => Fin.ext (by match a with | ⟨0, _⟩ => rfl | ⟨1, _⟩ => rfl | ⟨2, _⟩ => rfl)

theorem v13_at (x0 : (⟨S32x2048x1024, .f32⟩ : BufTy).Contents (Elt Ideal)) (x1 x2 : (⟨S1024x1024, .f32⟩ : BufTy).Contents (Elt Ideal))
    (b : Fin 32) (l m : Fin 2048) :
    val_main_v13 (F := Ideal) x0 x1 x2 (ix3 b l m) = colSum (scores x0 x1 x2) b m := by
  rw [val_main_v13_apply, idx_v13, val_main_v12_apply, idx_v12, v11_at]

theorem v14_at (x0 : (⟨S32x2048x1024, .f32⟩ : BufTy).Contents (Elt Ideal)) (x1 x2 : (⟨S1024x1024, .f32⟩ : BufTy).Contents (Elt Ideal))
    (b : Fin 32) (l m : Fin 2048) :
    val_main_v14 (F := Ideal) x0 x1 x2 (ix3 b l m) = prob (scores x0 x1 x2) b l m := by
  rw [val_main_v14_apply, v10_at, v13_at, Ideal.hostDivf_def]
  rfl

theorem lidx_v15 (b : Fin 32) (l : Fin 2048) (d : Fin 1024) (k : Fin 2048) : lidx_main_v15 (ix3 b l d) k = ix3 b l k :=
  funext fun a => Fin.ext (by match a with | ⟨0, _⟩ => rfl | ⟨1, _⟩ => rfl | ⟨2, _⟩ => rfl)
theorem ridx_v15 (b : Fin 32) (l : Fin 2048) (d : Fin 1024) (k : Fin 2048) : ridx_main_v15 (ix3 b l d) k = ix3 b k d :=
  funext fun a => Fin.ext (by match a with | ⟨0, _⟩ => rfl | ⟨1, _⟩ => rfl | ⟨2, _⟩ => rfl)

theorem result_eq (x0 : (⟨S32x2048x1024, .f32⟩ : BufTy).Contents (Elt Ideal)) (x1 x2 x3 : (⟨S1024x1024, .f32⟩ : BufTy).Contents (Elt Ideal))
    (b : Fin 32) (l : Fin 2048) (d : Fin 1024) :
    Cert.ReferenceIdeal.Read.val_main_v15 (F := Ideal) x0 x1 x2 x3 (ValueIdx.ix3 b l d)
      = ColumnSoftmaxAttention.attention (fun b l d => x0 (ValueIdx.ix3 b l d)) (fun d e => x1 (ValueIdx.ix2 d e))
          (fun d e => x2 (ValueIdx.ix2 d e)) (fun d e => x3 (ValueIdx.ix2 d e)) b l d := by
  rw [val_main_v15_apply]
  unfold attention ofQKV attend
  refine Finset.sum_congr rfl fun k _ => ?_
  rw [lidx_v15, ridx_v15, v14_at, v2_at]

end Cert.ReferenceIdeal.RefValue

end
-- ==== Proof.Bridge.lean ====
/-
  The two programs compute one function.

  Both end with their result array equal to attention with the softmax over the query axis, as a function of the
  four argument arrays (the specification read at the coordinates of an index):

  * the idealized kernel: its result array is what the attention kernel's write-backs leave, the sum over a batch's 16
    key tiles of each tile's share; the 16 tiles of 128 key rows are the 2048 key rows, each once, so that sum is the
    weighted sum over all key rows; a tile's scores are spelt K · Q where the specification spells Q · K, the same
    product of extended reals; and the query, key and value arrays the attention kernel is entered with are the
    un-flattened outputs of the projection kernel, the flattened input times the three weight matrices;
  * the idealized reference: its result term is the specification stage by stage.

  The claims follow: the three programs run and leave their arguments unchanged, the idealization rewrote nothing,
  and the two idealized programs, from memories agreeing on the arguments, end with equal results.
-/
import proofs.«131218_j63677185131093_2_alg».proof.Proof.Gen.Kernel.Frame
import proofs.«131218_j63677185131093_2_alg».proof.Proof.Gen.ReferenceIdeal.Run
import proofs.«131218_j63677185131093_2_alg».proof.Proof.WholeRun
import proofs.«131218_j63677185131093_2_alg».proof.Proof.Stretches
import proofs.«131218_j63677185131093_2_alg».proof.Proof.ProjectionRegion
import proofs.«131218_j63677185131093_2_alg».proof.Proof.AttentionRegion
import proofs.«131218_j63677185131093_2_alg».proof.Proof.ReferenceValue
import proofs.«131218_j63677185131093_2_alg».proof.Defs
import proofs.«131218_j63677185131093_2_alg».proof.Proof.Gen.Pre_finite_inputs

noncomputable section

open scoped BigOperators

namespace Cert.Bridge

open Idealize.ShloMosaic Idealize.ShloMosaic.TcCoe Idealize.SL.Sem Idealize.ShloMosaic.ValueIdx
open ColumnSoftmaxAttention

/-- The specification as a whole array: at an index, attention of the arguments read by coordinates. -/
def specArray (x : (⟨3, ![32, 2048, 1024]⟩ : Shape).Idx → EReal) (wq wk wv : (⟨2, ![1024, 1024]⟩ : Shape).Idx → EReal) :
    (⟨3, ![32, 2048, 1024]⟩ : Shape).Idx → EReal :=
  fun i => attention (fun b l d => x (ix3 b l d)) (fun d e => wq (ix2 d e)) (fun d e => wk (ix2 d e))
    (fun d e => wv (ix2 d e)) (i 0) (i 1) (i 2)

theorem specArray_apply (x : (⟨3, ![32, 2048, 1024]⟩ : Shape).Idx → EReal) (wq wk wv : (⟨2, ![1024, 1024]⟩ : Shape).Idx → EReal)
    (b : Fin 32) (l : Fin 2048) (d : Fin 1024) :
    specArray x wq wk wv (ix3 b l d) = attention (fun b l d => x (ix3 b l d)) (fun d e => wq (ix2 d e))
      (fun d e => wk (ix2 d e)) (fun d e => wv (ix2 d e)) b l d := rfl

/-! ## The reference -/

/-- The reference's result, as an array, is the specification. -/
theorem reference_value (x0 : (⟨Cert.ReferenceIdeal.S32x2048x1024, .f32⟩ : BufTy).Contents (Elt Ideal))
    (x1 x2 x3 : (⟨Cert.ReferenceIdeal.S1024x1024, .f32⟩ : BufTy).Contents (Elt Ideal)) :
    Cert.ReferenceIdeal.Read.val_main_v15 (F := Ideal) x0 x1 x2 x3 = specArray x0 x1 x2 x3 := by
  funext i
  obtain ⟨b, l, d, rfl⟩ : ∃ (b : Fin 32) (l : Fin 2048) (d : Fin 1024), i = ix3 b l d := ⟨i 0, i 1, i 2, eq_ix3 i⟩
  exact Cert.ReferenceIdeal.RefValue.result_eq x0 x1 x2 x3 b l d

/-! ## The kernel -/

section Kernel

open Cert.KernelIdeal Cert.KernelIdeal.Gen

variable (m : (ℓ : Loc nD τ sig) → Buf (Elt Ideal) ℓ) (ρ : Dev nD → PrngReg)

/-- The input read by coordinates. -/
abbrev inputAt (c : Dev nD) : Fin 32 → Fin 2048 → Fin 1024 → EReal :=
  fun b l d => m ((c : Thread nD τ).loc main_arg0) (ix3 b l d)

/-- An un-flattened output of the projection kernel at `(b, l, e)`: row `(b, l)` of the input against column `e` of the
    weight matrix. -/
theorem projected (c : Dev nD) (w : S1024x1024.Idx → EReal) (W1 : S1024x1024.Idx → EReal) (hw : W1 = w)
    (b : Fin 32) (l : Fin 2048) (e : Fin 1024) :
    shapeCast S32x2048x1024 (Projection.rowsTimes (V1 m ρ c main_v0) W1) shapeCasts_S65536x1024_S32x2048x1024 (ix3 b l e)
      = proj (inputAt m c) (fun d e => w (ix2 d e)) b l e := by
  subst hw
  rw [Stretches.unflatten_apply]
  unfold Projection.rowsTimes proj
  refine Finset.sum_congr rfl fun d _ => ?_
  refine congr (congrArg HMul.hMul ?_) rfl
  exact (congrFun (Stretches.entry_flat m ρ c) _).trans (Stretches.flatten_apply _ _ b l d)

/-- The queries the attention kernel is entered with are the projection of the input by the first weight matrix. -/
theorem queries (c : Dev nD) (b : Fin 32) (l : Fin 2048) (e : Fin 1024) :
    AttentionRegion.qAt (V3 m ρ) c b l e
      = proj (inputAt m c) (fun d e => m ((c : Thread nD τ).loc main_arg1) (ix2 d e)) b l e := by
  unfold AttentionRegion.qAt
  refine (congrFun (Stretches.entry_q m ρ c) (ix3 b l e)).trans ?_
  rw [Projection.final4 (V1 m ρ) c]
  exact projected m ρ c _ _ (Stretches.entry_wq m ρ c) b l e

/-- The keys: the projection by the second weight matrix. -/
theorem keys (c : Dev nD) (b : Fin 32) (l : Fin 2048) (e : Fin 1024) :
    AttentionRegion.kAt (V3 m ρ) c b l e
      = proj (inputAt m c) (fun d e => m ((c : Thread nD τ).loc main_arg2) (ix2 d e)) b l e := by
  unfold AttentionRegion.kAt
  refine (congrFun (Stretches.entry_k m ρ c) (ix3 b l e)).trans ?_
  rw [Projection.final5 (V1 m ρ) c]
  exact projected m ρ c _ _ (Stretches.entry_wk m ρ c) b l e

/-- The values: the projection by the third weight matrix. -/
theorem values (c : Dev nD) (b : Fin 32) (l : Fin 2048) (e : Fin 1024) :
    AttentionRegion.vAt (V3 m ρ) c b l e
      = proj (inputAt m c) (fun d e => m ((c : Thread nD τ).loc main_arg3) (ix2 d e)) b l e := by
  unfold AttentionRegion.vAt
  refine (congrFun (Stretches.entry_v m ρ c) (ix3 b l e)).trans ?_
  rw [Projection.final6 (V1 m ρ) c]
  exact projected m ρ c _ _ (Stretches.entry_wv m ρ c) b l e

/-- One key tile's share is the sum, over the tile's key rows, of the specification's summand at that key row: the
    tile's scores are the specification's with the two factors of every product exchanged. -/
theorem share_eq (c : Dev nD) (b : Fin 32) (l : Fin 2048) (d : Fin 1024) (j : Fin 16) :
    AttentionRegion.share (V3 m ρ) c b l d j
      = ∑ r : Fin 128,
          (fun mm : Fin 2048 =>
            prob (score (proj (inputAt m c) (fun d e => m ((c : Thread nD τ).loc main_arg1) (ix2 d e)))
                (proj (inputAt m c) (fun d e => m ((c : Thread nD τ).loc main_arg2) (ix2 d e)))) b l mm
              * proj (inputAt m c) (fun d e => m ((c : Thread nD τ).loc main_arg3) (ix2 d e)) b mm d) (keyRow j r) := by
  unfold AttentionRegion.share
  refine Finset.sum_congr rfl fun r _ => ?_
  show _ = prob _ b l (keyRow j r) * proj _ _ b (keyRow j r) d
  rw [Tile.prob_eq]
  refine congr (congrArg HMul.hMul (congrArg (fun a => Tile.colSoftmax a l) (funext fun l' => ?_)))
    (values m ρ c b (keyRow j r) d)
  unfold score
  refine Finset.sum_congr rfl fun e _ => ?_
  rw [queries m ρ c b l' e, keys m ρ c b (keyRow j r) e]
  exact mul_comm _ _

/-- The kernel's result array is the specification. -/
theorem kernel_value (c : Dev nD) :
    W4 m ρ c (Proc.devRef .tc main_v6)
      = specArray (m ((c : Thread nD τ).loc main_arg0)) (m ((c : Thread nD τ).loc main_arg1))
          (m ((c : Thread nD τ).loc main_arg2)) (m ((c : Thread nD τ).loc main_arg3)) := by
  refine (WholeRun.result_eq m ρ c).trans ((AttentionRegion.final (V3 m ρ) c).trans ?_)
  funext i
  obtain ⟨b, l, d, rfl⟩ : ∃ (b : Fin 32) (l : Fin 2048) (d : Fin 1024), i = ix3 b l d := ⟨i 0, i 1, i 2, eq_ix3 i⟩
  rw [AttentionRegion.result_apply, specArray_apply]
  unfold AttentionRegion.resultAt attention ofQKV attend
  rw [Finset.sum_congr rfl fun j _ => share_eq m ρ c b l d j]
  exact sum_tiles (fun mm : Fin 2048 =>
    prob (score (proj (inputAt m c) (fun d e => m ((c : Thread nD τ).loc main_arg1) (ix2 d e)))
        (proj (inputAt m c) (fun d e => m ((c : Thread nD τ).loc main_arg2) (ix2 d e)))) b l mm
      * proj (inputAt m c) (fun d e => m ((c : Thread nD τ).loc main_arg3) (ix2 d e)) b mm d)

end Kernel

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both idealized programs run, leave the arguments unchanged, and end
    with the same result array: the specification of the arguments. -/
theorem algebraic : Cert.algebraic_KernelIdeal_ReferenceIdeal := by
  intro m ρ m' ρ' _ hagree
  refine ⟨fun c => specArray (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_value m ρ c), (h c).2⟩)
      (Cert.KernelIdeal.WholeRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, (hagree c).1, (hagree c).2.1, (hagree c).2.2.1, (hagree c).2.2.2]
    exact reference_value _ _ _ _

end Cert.Bridge

end
-- ==== Proof.lean ====
/- Attention with the softmax over the QUERY axis, computed two ways.

   The reference projects the input x : [32, 2048, 1024] by three weight matrices to queries, keys and values, forms
   the unscaled scores A[b, l, m] = Σ_d Q[b, l, d] · K[b, m, d], normalises every key column of A over the 2048 query
   rows (maximum, shifted exponential, sum, quotient) and takes out[b, l, d] = Σ_m P[b, l, m] · V[b, m, d].
   The kernel does the projections in a first pass over 128 row blocks of the flattened input, and the attention
   in a second pass over 32 batches times 16 tiles of 128 key rows: a tile's scores against all query rows are normalised
   row by row — exactly because the softmax is over the queries, a key tile sees its whole normalisation — and its
   share Σ_{m in the tile} P[b, l, m] · V[b, m, d] is added to an output block that starts at zero for each batch.
   Over the extended reals the two are one function of the arguments: the products are commuted (K · Q for Q · K),
   and a sum over the 2048 key rows is taken as 16 runs of 128, which any commutative monoid allows; no entry needs to
   be finite. Proof/Attention.lean states the function, Proof/ReferenceValue.lean reads the reference as it,
   Proof/ProjectionRegion.lean, Proof/AttentionTile.lean and Proof/AttentionRegion.lean read the kernel's two passes,
   Proof/Stretches.lean the reshapes between them, Proof/WholeRun.lean the run of the whole program, and
   Proof/Bridge.lean joins the two sides and states the five claims. -/
import proofs.«131218_j63677185131093_2_alg».proof.Defs
import proofs.«131218_j63677185131093_2_alg».proof.Proof.Gen.Kernel
import proofs.«131218_j63677185131093_2_alg».proof.Proof.Gen.Kernel.Skeleton
import proofs.«131218_j63677185131093_2_alg».proof.Proof.Gen.Kernel.Launch
import proofs.«131218_j63677185131093_2_alg».proof.Proof.Gen.Kernel.Points
import proofs.«131218_j63677185131093_2_alg».proof.Proof.Gen.Kernel.Frame
import proofs.«131218_j63677185131093_2_alg».proof.Proof.Gen.KernelIdeal
import proofs.«131218_j63677185131093_2_alg».proof.Proof.Gen.KernelIdeal.Skeleton
import proofs.«131218_j63677185131093_2_alg».proof.Proof.Gen.KernelIdeal.Launch
import proofs.«131218_j63677185131093_2_alg».proof.Proof.Gen.KernelIdeal.Points
import proofs.«131218_j63677185131093_2_alg».proof.Proof.Gen.KernelIdeal.Frame
import proofs.«131218_j63677185131093_2_alg».proof.Proof.Gen.ReferenceIdeal
import proofs.«131218_j63677185131093_2_alg».proof.Proof.Gen.ReferenceIdeal.Run
import proofs.«131218_j63677185131093_2_alg».proof.Proof.Gen.ReferenceIdeal.Read
import proofs.«131218_j63677185131093_2_alg».proof.Proof.Gen.Pre_finite_inputs
import proofs.«131218_j63677185131093_2_alg».proof.Proof.Bridge
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Bridge.frame_kernel, Cert.Bridge.frame_kernelIdeal, Cert.Bridge.frame_referenceIdeal, Cert.Bridge.preserves,
    Cert.Bridge.algebraic⟩

end Cert.Proof

end
